-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S768x768 : Shape := ⟨2, ![768, 768]⟩
abbrev S768 : Shape := ⟨1, ![768]⟩
abbrev S64x768 : Shape := ⟨2, ![64, 768]⟩
abbrev S64 : Shape := ⟨1, ![64]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S64x768 : S_.BroadcastsInDim S64x768 (![] : Fin 0 → Fin S64x768.rank)
  reducesTo_S64x768_S_d0_1 : S64x768.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x768 .f32) (main_arg5 : FVec F S64 .f32) (main_arg6 : FVec F S64 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S64x768 .f32 := Host.absf main_arg4
  let main_cst_6 : FVec F S_ .f32 := constant S_ .f32 0x7F800000#32
  let main_v20 : FVec F S64x768 .f32 := broadcastInDim S64x768 ![] bcast_S_S64x768 main_cst_6
  let main_v21 : IVec S64x768 1 := cmpf .olt main_v19 main_v20
  let main_c_7 : IVec S_ 1 := constantI S_ 1 1#1
  let main_v22 : IVec S_ 1 := (fun x v => Host.reduce IntOp.andi x v reducesTo_S64x768_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S32768x768 .f32) (main_arg1 : FVec F S768x768 .f32) (main_arg2 : FVec F S768 .f32) (main_arg3 : FVec F S768 .f32) (main_arg4 : FVec F S64x768 .f32) (main_arg5 : FVec F S64 .f32) (main_arg6 : FVec F S64 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_arg6 main_v13 main_v16
-- ==== Kernel.lean ====
abbrev S32768x768 : Shape := ⟨2, ![32768, 768]⟩
abbrev S768x768 : Shape := ⟨2, ![768, 768]⟩
abbrev S768 : Shape := ⟨1, ![768]⟩
abbrev S64x768 : Shape := ⟨2, ![64, 768]⟩
abbrev S64 : Shape := ⟨1, ![64]⟩
abbrev S1x768 : Shape := ⟨2, ![1, 768]⟩
abbrev S64x1 : Shape := ⟨2, ![64, 1]⟩
abbrev S64x32768 : Shape := ⟨2, ![64, 32768]⟩
abbrev S32768x64 : Shape := ⟨2, ![32768, 64]⟩
abbrev S2048x768 : Shape := ⟨2, ![2048, 768]⟩
abbrev S64x2048 : Shape := ⟨2, ![64, 2048]⟩
abbrev S2048 : Shape := ⟨1, ![2048]⟩
abbrev S2048x1 : Shape := ⟨2, ![2048, 1]⟩
abbrev S1x2048 : Shape := ⟨2, ![1, 2048]⟩

abbrev nBuf : Space → Nat
  | .hbm => 17
  | .vmem => 14
  | .smem => 0
  | _ => 0

abbrev bufTy : (tb : Table) → Fin (tcTables nBuf tb) → BufTy
  | .hbm, ⟨0, _⟩ => ⟨S32768x768, .f32⟩
  | .hbm, ⟨1, _⟩ => ⟨S768x768, .f32⟩
  | .hbm, ⟨2, _⟩ => ⟨S768, .f32⟩
  | .hbm, ⟨3, _⟩ => ⟨S768, .f32⟩
  | .hbm, ⟨4, _⟩ => ⟨S64x768, .f32⟩
  | .hbm, ⟨5, _⟩ => ⟨S64, .f32⟩
  | .hbm, ⟨6, _⟩ => ⟨S64, .f32⟩
  | .hbm, ⟨7, _⟩ => ⟨S1x768, .f32⟩
  | .hbm, ⟨8, _⟩ => ⟨S1x768, .f32⟩
  | .hbm, ⟨9, _⟩ => ⟨S64x1, .f32⟩
  | .hbm, ⟨10, _⟩ => ⟨S64x1, .f32⟩
  | .hbm, ⟨11, _⟩ => ⟨S64x32768, .f32⟩
  | .hbm, ⟨12, _⟩ => ⟨S64x32768, .i32⟩
  | .hbm, ⟨13, _⟩ => ⟨S64x32768, .f32⟩
  | .hbm, ⟨14, _⟩ => ⟨S32768x64, .f32⟩
  | .hbm, ⟨15, _⟩ => ⟨S32768x64, .i32⟩
  | .hbm, ⟨16, _⟩ => ⟨S32768x64, .f32⟩
  | .local _ .vmem, ⟨0, _⟩ => ⟨S2048x768, .f32⟩
  | .local _ .vmem, ⟨1, _⟩ => ⟨S2048x768, .f32⟩
  | .local _ .vmem, ⟨2, _⟩ => ⟨S768x768, .f32⟩
  | .local _ .vmem, ⟨3, _⟩ => ⟨S1x768, .f32⟩
  | .local _ .vmem, ⟨4, _⟩ => ⟨S1x768, .f32⟩
  | .local _ .vmem, ⟨5, _⟩ => ⟨S64x768, .f32⟩
  | .local _ .vmem, ⟨6, _⟩ => ⟨S64x1, .f32⟩
  | .local _ .vmem, ⟨7, _⟩ => ⟨S64x1, .f32⟩
  | .local _ .vmem, ⟨8, _⟩ => ⟨S64x2048, .f32⟩
  | .local _ .vmem, ⟨9, _⟩ => ⟨S64x2048, .f32⟩
  | .local _ .vmem, ⟨10, _⟩ => ⟨S64x2048, .i32⟩
  | .local _ .vmem, ⟨11, _⟩ => ⟨S64x2048, .i32⟩
  | .local _ .vmem, ⟨12, _⟩ => ⟨S64x2048, .f32⟩
  | .local _ .vmem, ⟨13, _⟩ => ⟨S64x2048, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4_0 : Ref sig .tc := ⟨.hbm, 11, rfl⟩
abbrev main_call0_v4_1 : Ref sig .tc := ⟨.hbm, 12, rfl⟩
abbrev main_call0_v4_2 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2048 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S768_S1x768 : S768.ShapeCasts S1x768
  shapeCasts_S64_S64x1 : S64.ShapeCasts S64x1
  transposes_S64x32768_S32768x64_1_0 : S64x32768.Transposes [1, 0] S32768x64
  inb_S2048x768_S2048x768_0_0 : ∀ a, (![0, 0] : Fin 2 → Nat) a + S2048x768.size a ≤ S2048x768.size a
  h_S2048x768 : 0 < S2048x768.numel
  inb_S768x768_S768x768_0_0 : ∀ a, (![0, 0] : Fin 2 → Nat) a + S768x768.size a ≤ S768x768.size a
  h_S768x768 : 0 < S768x768.numel
  reduces_S2048x768_S2048 : S2048x768.Reduces [1] S2048
  shapeCasts_S2048_S2048x1 : S2048.ShapeCasts S2048x1
  broadcasts_S2048x1_S2048x768 : S2048x1.Broadcasts S2048x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2048x768 : S1x768.Broadcasts S2048x768
  inb_S64x768_S64x768_0_0 : ∀ a, (![0, 0] : Fin 2 → Nat) a + S64x768.size a ≤ S64x768.size a
  h_S64x768 : 0 < S64x768.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x2048 : S64x1.Broadcasts S64x2048
  inb_S64x2048_S64x2048_0_0 : ∀ a, (![0, 0] : Fin 2 → Nat) a + S64x2048.size a ≤ S64x2048.size a
  h_S64x2048 : 0 < S64x2048.numel
  reduces_S64x2048_S2048 : S64x2048.Reduces [0] S2048
  shapeCasts_S2048_S1x2048 : S2048.ShapeCasts S1x2048
  broadcasts_S1x2048_S64x2048 : S1x2048.Broadcasts S64x2048
  iota_S64x2048_d0_w32 : S64x2048.Iotas .tc 32 [0]
  dot_S2048x768_S768x768_S2048x768_1_1_0_0_n_n_wf : DotDims.WF S2048x768 S768x768 S2048x768 [1] [1] [0] [0] [] []
  dot_S64x768_S2048x768_S64x2048_1_1_0_0_n_n_wf : DotDims.WF S64x768 S2048x768 S64x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S32768x768.size a
  hwx0_0 : ∀ i : grid0.Coords, EltTy.bits .f32 = 32 ∨ (Rect.block (s := S32768x768) S2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x768.size a ≤ S64x768.size a
  hwx0_4 : ∀ i : grid0.Coords, EltTy.bits .f32 = 32 ∨ (Rect.block (s := S64x768) S64x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .f32 = 32 ∨ (Rect.block (s := S64x1) S64x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x2048.size a ≤ S64x32768.size a
  hwx0_7 : ∀ i : grid0.Coords, EltTy.bits .f32 = 32 ∨ (Rect.block (s := S64x32768) S64x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x2048.size a ≤ S64x32768.size a
  hwx0_8 : ∀ i : grid0.Coords, EltTy.bits .i32 = 32 ∨ (Rect.block (s := S64x32768) S64x2048.size (cc0_transform_8 i) (hinb0_8 i)).WholeWords (EltTy.packing .i32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x2048.size a ≤ S64x32768.size a
  hwx0_9 : ∀ i : grid0.Coords, EltTy.bits .f32 = 32 ∨ (Rect.block (s := S64x32768) S64x2048.size (cc0_transform_9 i) (hinb0_9 i)).WholeWords (EltTy.packing .f32)

variable [Facts₀]

def dot_S2048x768_S768x768_S2048x768_1_1_0_0_n_n : DotDims S2048x768 S768x768 S2048x768 where
  lhsContracting := [1]
  rhsContracting := [1]
  lhsNonContracting := [0]
  rhsNonContracting := [0]
  lhsBatch := []
  rhsBatch := []
  wf := dot_S2048x768_S768x768_S2048x768_1_1_0_0_n_n_wf
def dot_S64x768_S2048x768_S64x2048_1_1_0_0_n_n : DotDims S64x768 S2048x768 S64x2048 where
  lhsContracting := [1]
  rhsContracting := [1]
  lhsNonContracting := [0]
  rhsNonContracting := [0]
  lhsBatch := []
  rhsBatch := []
  wf := dot_S64x768_S2048x768_S64x2048_1_1_0_0_n_n_wf

abbrev win0_0 : Pipeline.Window sig grid0 :=
  Pipeline.Window.ofSpec (Memref.whole main_arg0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v3) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v4_0) S64x2048.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_call0_v4_1) S64x2048.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_call0_v4_2) S64x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32768x768 : Shape := ⟨2, ![32768, 768]⟩
abbrev S768x768 : Shape := ⟨2, ![768, 768]⟩
abbrev S768 : Shape := ⟨1, ![768]⟩
abbrev S64x768 : Shape := ⟨2, ![64, 768]⟩
abbrev S64 : Shape := ⟨1, ![64]⟩
abbrev S_ : Shape := ⟨0, ![]⟩
abbrev S32768 : Shape := ⟨1, ![32768]⟩
abbrev S32768x1 : Shape := ⟨2, ![32768, 1]⟩
abbrev S1x768 : Shape := ⟨2, ![1, 768]⟩
abbrev S768x64 : Shape := ⟨2, ![768, 64]⟩
abbrev S32768x64 : Shape := ⟨2, ![32768, 64]⟩
abbrev S1x64 : Shape := ⟨2, ![1, 64]⟩

abbrev nBuf : Space → Nat
  | .hbm => 74
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S768x768, .f32⟩
  | .hbm, ⟨2, _⟩ => ⟨S768, .f32⟩
  | .hbm, ⟨3, _⟩ => ⟨S768, .f32⟩
  | .hbm, ⟨4, _⟩ => ⟨S64x768, .f32⟩
  | .hbm, ⟨5, _⟩ => ⟨S64, .f32⟩
  | .hbm, ⟨6, _⟩ => ⟨S64, .f32⟩
  | .hbm, ⟨7, _⟩ => ⟨S768x768, .f32⟩
  | .hbm, ⟨8, _⟩ => ⟨S32768x768, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x768, .f32⟩
  | .hbm, ⟨16, _⟩ => ⟨S32768x768, .f32⟩
  | .hbm, ⟨17, _⟩ => ⟨S32768x768, .f32⟩
  | .hbm, ⟨18, _⟩ => ⟨S_, .f32⟩
  | .hbm, ⟨19, _⟩ => ⟨S32768, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x768, .f32⟩
  | .hbm, ⟨25, _⟩ => ⟨S32768x768, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x1, .f32⟩
  | .hbm, ⟨30, _⟩ => ⟨S32768x768, .f32⟩
  | .hbm, ⟨31, _⟩ => ⟨S32768x768, .f32⟩
  | .hbm, ⟨32, _⟩ => ⟨S1x768, .f32⟩
  | .hbm, ⟨33, _⟩ => ⟨S32768x768, .f32⟩
  | .hbm, ⟨34, _⟩ => ⟨S32768x768, .f32⟩
  | .hbm, ⟨35, _⟩ => ⟨S1x768, .f32⟩
  | .hbm, ⟨36, _⟩ => ⟨S32768x768, .f32⟩
  | .hbm, ⟨37, _⟩ => ⟨S32768x768, .f32⟩
  | .hbm, ⟨38, _⟩ => ⟨S32768x768, .f32⟩
  | .hbm, ⟨39, _⟩ => ⟨S32768x768, .f32⟩
  | .hbm, ⟨40, _⟩ => ⟨S_, .f32⟩
  | .hbm, ⟨41, _⟩ => ⟨S32768x768, .f32⟩
  | .hbm, ⟨42, _⟩ => ⟨S32768x768, .f32⟩
  | .hbm, ⟨43, _⟩ => ⟨S_, .f32⟩
  | .hbm, ⟨44, _⟩ => ⟨S32768x768, .f32⟩
  | .hbm, ⟨45, _⟩ => ⟨S32768x768, .f32⟩
  | .hbm, ⟨46, _⟩ => ⟨S32768x768, .f32⟩
  | .hbm, ⟨47, _⟩ => ⟨S768x64, .f32⟩
  | .hbm, ⟨48, _⟩ => ⟨S32768x64, .f32⟩
  | .hbm, ⟨49, _⟩ => ⟨S1x64, .f32⟩
  | .hbm, ⟨50, _⟩ => ⟨S32768x64, .f32⟩
  | .hbm, ⟨51, _⟩ => ⟨S32768x64, .f32⟩
  | .hbm, ⟨52, _⟩ => ⟨S1x64, .f32⟩
  | .hbm, ⟨53, _⟩ => ⟨S32768x64, .f32⟩
  | .hbm, ⟨54, _⟩ => ⟨S32768x64, .f32⟩
  | .hbm, ⟨55, _⟩ => ⟨S_, .f32⟩
  | .hbm, ⟨56, _⟩ => ⟨S32768x64, .f32⟩
  | .hbm, ⟨57, _⟩ => ⟨S32768x64, .f32⟩
  | .hbm, ⟨58, _⟩ => ⟨S_, .f32⟩
  | .hbm, ⟨59, _⟩ => ⟨S32768, .f32⟩
  | .hbm, ⟨60, _⟩ => ⟨S_, .f32⟩
  | .hbm, ⟨61, _⟩ => ⟨S32768, .f32⟩
  | .hbm, ⟨62, _⟩ => ⟨S32768, .f32⟩
  | .hbm, ⟨63, _⟩ => ⟨S32768x1, .f32⟩
  | .hbm, ⟨64, _⟩ => ⟨S32768x64, .f32⟩
  | .hbm, ⟨65, _⟩ => ⟨S32768x64, .f32⟩
  | .hbm, ⟨66, _⟩ => ⟨S32768x64, .f32⟩
  | .hbm, ⟨67, _⟩ => ⟨S_, .f32⟩
  | .hbm, ⟨68, _⟩ => ⟨S32768, .f32⟩
  | .hbm, ⟨69, _⟩ => ⟨S32768x1, .f32⟩
  | .hbm, ⟨70, _⟩ => ⟨S32768x64, .f32⟩
  | .hbm, ⟨71, _⟩ => ⟨S32768x64, .f32⟩
  | .hbm, ⟨72, _⟩ => ⟨S64, .i32⟩
  | .hbm, ⟨73, _⟩ => ⟨S32768x64, .i32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]

class Facts₀ : Prop where
  transposes_S768x768_S768x768_1_0 : S768x768.Transposes [1, 0] S768x768
  reducesTo_S32768x768_S32768_d1 : S32768x768.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x768_0_1 : S32768x1.BroadcastsInDim S32768x768 (![0, 1] : Fin 2 → Fin S32768x768.rank)
  bcast_S768_S1x768_1 : S768.BroadcastsInDim S1x768 (![1] : Fin 1 → Fin S1x768.rank)
  bcast_S1x768_S32768x768_0_1 : S1x768.BroadcastsInDim S32768x768 (![0, 1] : Fin 2 → Fin S32768x768.rank)
  bcast_S_S32768x768 : S_.BroadcastsInDim S32768x768 (![] : Fin 0 → Fin S32768x768.rank)
  transposes_S64x768_S768x64_1_0 : S64x768.Transposes [1, 0] S768x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  bcast_S_S32768x64 : S_.BroadcastsInDim S32768x64 (![] : Fin 0 → Fin S32768x64.rank)
  reducesTo_S32768x64_S32768_d1 : S32768x64.ReducesTo [1] S32768
  bcast_S_S32768 : S_.BroadcastsInDim S32768 (![] : Fin 0 → Fin S32768.rank)
  bcast_S32768x1_S32768x64_0_1 : S32768x1.BroadcastsInDim S32768x64 (![0, 1] : Fin 2 → Fin S32768x64.rank)
  bcast_S64_S32768x64_1 : S64.BroadcastsInDim S32768x64 (![1] : Fin 1 → Fin S32768x64.rank)
  dot_S32768x768_S768x768_S32768x768_1_0_0_1_n_n_wf : DotDims.WF S32768x768 S768x768 S32768x768 [1] [0] [0] [1] [] []
  dot_S32768x768_S768x64_S32768x64_1_0_0_1_n_n_wf : DotDims.WF S32768x768 S768x64 S32768x64 [1] [0] [0] [1] [] []

variable [Facts₀]

def dot_S32768x768_S768x768_S32768x768_1_0_0_1_n_n : DotDims S32768x768 S768x768 S32768x768 where
  lhsContracting := [1]
  rhsContracting := [0]
  lhsNonContracting := [0]
  rhsNonContracting := [1]
  lhsBatch := []
  rhsBatch := []
  wf := dot_S32768x768_S768x768_S32768x768_1_0_0_1_n_n_wf
def dot_S32768x768_S768x64_S32768x64_1_0_0_1_n_n : DotDims S32768x768 S768x64 S32768x64 where
  lhsContracting := [1]
  rhsContracting := [0]
  lhsNonContracting := [0]
  rhsNonContracting := [1]
  lhsBatch := []
  rhsBatch := []
  wf := dot_S32768x768_S768x64_S32768x64_1_0_0_1_n_n_wf

class Facts : Prop extends Facts₀ where

variable [Facts]
-- ==== Proof.ExtendedReals.lean ====
/-
  Facts about the extended reals that the normalisation step of the router needs.

  A square is never negative, even at the infinities (⊥ · ⊥ = ⊤).  Hence a sum of squares, its quotient by a positive
  real, and that quotient plus a positive real are, in turn, non-negative, non-negative and strictly positive — with no
  finiteness assumed.  For a strictly positive extended real v (⊤ included) the product a · v^(-1/2) and the quotient
  a / √v are the same extended real: at ⊤ both are a · 0, at a positive real both are a · (√v)⁻¹.  That is the one law
  separating "multiply by the reciprocal square root" from "divide by the square root".

  The float patterns met on the way: 768.0 denotes the real 768, 1e-5 (rounded to f32) a positive real, 1.0 the unit.
-/
import Idealize.ShloMosaic.PureOps.Ideal
import Idealize.ShloMosaic.PureOps.Ideal.Laws
import Idealize.ShloMosaic.Lib.IdealHost

noncomputable section

namespace Cert.Router

open Idealize.ShloMosaic

/-- A square is non-negative on the extended reals. -/
theorem mul_self_nonneg (a : EReal) : 0 ≤ a * a :=
  EReal.mul_nonneg_iff.mpr ((le_total 0 a).imp (fun h => ⟨h, h⟩) (fun h => ⟨h, h⟩))

/-- The quotient of a non-negative extended real by a strictly positive one is non-negative. -/
theorem div_nonneg_of_pos {x c : EReal} (hx : 0 ≤ x) (hc : 0 < c) : 0 ≤ Ideal.div x c := by
  unfold Ideal.div
  rw [if_neg hc.ne']
  exact EReal.mul_nonneg hx (EReal.inv_nonneg_of_nonneg hc.le)

/-- The pattern of 768.0 denotes the real 768. -/
theorem ofBits_768 : Ideal.ofBits .f32 0x44400000#32 = ((768 : ℝ) : EReal) := by
  simp [Ideal.ofBits, Ideal.ieee, -EReal.coe_mul]; norm_num

theorem ofBits_768_pos : (0 : EReal) < Ideal.ofBits .f32 0x44400000#32 := by
  rw [ofBits_768]; exact EReal.coe_pos.mpr (by norm_num)

/-- The pattern of 1e-5 (as f32) denotes a strictly positive real. -/
theorem ofBits_eps_pos : (0 : EReal) < Ideal.ofBits .f32 0x3727C5AC#32 := by
  simp [Ideal.ofBits, Ideal.ieee, -EReal.coe_mul]

/-- Multiplying by the reciprocal square root is dividing by the square root, at every strictly positive extended real. -/
theorem mul_rsqrt_eq_div_sqrt (a : EReal) {v : EReal} (hv : 0 < v) :
    a * Ideal.rsqrt v = Ideal.div a (Ideal.sqrt v) := by
  induction v using EReal.rec with
  | bot => exact absurd hv (not_lt.mpr bot_le)
  | top =>
    rw [Ideal.rsqrt_top, Ideal.sqrt_top]
    unfold Ideal.div
    rw [if_neg (by decide), EReal.inv_top]
  | coe r =>
    have hr : 0 < r := EReal.coe_pos.mp hv
    have hs : 0 < Real.sqrt r := Real.sqrt_pos.mpr hr
    rw [Ideal.rsqrt_coe, Ideal.sqrt_coe, if_neg (not_lt.mpr hr.le), if_neg hr.ne', if_neg (not_lt.mpr hr.le)]
    unfold Ideal.div
    rw [if_neg (EReal.coe_ne_zero.mpr hs.ne'), EReal.coe_inv]

end Cert.Router

end
-- ==== Proof.RouterRow.lean ====
/-
  The router, one token at a time, as functions on the extended reals.

  For a token's feature row x (768 entries) the hidden row is h j = Σ_k x k · W1 j k.  Its mean and variance over the
  768 features are sums divided by 768; the centred row times (variance + ε)^(-1/2), scaled by g and shifted by b, is the
  normalised row; y ↦ y · logistic y is applied entrywise; the 64 logits are (Σ_k W2 e k · a k + b2 e + eb e) / 0.1; the
  weights are the softmax of the logits: exp (l e − max l) divided by the sum of those exponentials over the experts.
  None of these depends on any other token, which is why a block of tokens and the whole batch compute the same rows.

  Two arrangements of the same row meet here.  One multiplies by the reciprocal square root, contracts with W2 on the
  left, and takes the maximum once; the other divides by the square root, contracts with W2 on the right, spells the
  logistic function out as 1 / (1 + exp (−y)), and takes the maximum once more against −∞.  The lemmas below say these
  are the same extended reals: the first by the positivity of variance + ε, the rest by commutativity, by the
  definition of the logistic function, and because a maximum taken from −∞ is at least −∞.
-/
import proofs.«175522_g35725537968797_cont_8to1_b_278_10_alg».proof.Proof.ExtendedReals

noncomputable section

namespace Cert.Router

open Idealize.ShloMosaic

/-- The hidden row of a token: h j = Σ_k x k · W1 j k. -/
def hidden (x : Fin 768 → EReal) (W1 : Fin 768 → Fin 768 → EReal) (j : Fin 768) : EReal :=
  ∑ k : Fin 768, x k * W1 j k

/-- The mean of a row of 768 entries: their sum divided by 768. -/
def rowMean (f : Fin 768 → EReal) : EReal :=
  Ideal.div (∑ j : Fin 768, f j) (Ideal.ofBits .f32 0x44400000#32)

/-- A row minus its mean. -/
def centred (h : Fin 768 → EReal) (j : Fin 768) : EReal := h j - rowMean h

/-- The variance of a row plus ε: the mean of the squares of the centred row, plus the f32 nearest to 1e-5. -/
def varEps (h : Fin 768 → EReal) : EReal :=
  rowMean (fun j => centred h j * centred h j) + Ideal.ofBits .f32 0x3727C5AC#32

/-- The normalised row: centred, times (variance + ε)^(-1/2), scaled by g and shifted by b. -/
def normalised (h g b : Fin 768 → EReal) (j : Fin 768) : EReal :=
  centred h j * Ideal.rsqrt (varEps h) * g j + b j

/-- y · logistic y. -/
def silu (y : EReal) : EReal := y * Ideal.logistic y

/-- The activated row of a token. -/
def activation (x : Fin 768 → EReal) (W1 : Fin 768 → Fin 768 → EReal) (g b : Fin 768 → EReal) (j : Fin 768) : EReal :=
  silu (normalised (hidden x W1) g b j)

/-- The logit of expert e from an activated row: (Σ_k W2 e k · a k + b2 e + eb e) / 0.1. -/
def logit (a : Fin 768 → EReal) (W2 : Fin 64 → Fin 768 → EReal) (b2 eb : Fin 64 → EReal) (e : Fin 64) : EReal :=
  Ideal.div ((∑ k : Fin 768, W2 e k * a k) + b2 e + eb e) (Ideal.ofBits .f32 0x3DCCCCCD#32)

/-- The largest of 64 logits, taken from −∞. -/
def rowMax (l : Fin 64 → EReal) : EReal :=
  (Finset.univ : Finset (Fin 64)).fold max (Ideal.ofBits .f32 0xFF800000#32) l

/-- exp (l e − max l). -/
def expShifted (l : Fin 64 → EReal) (e : Fin 64) : EReal := Ideal.exp (l e - rowMax l)

/-- The softmax weight of expert e. -/
def weight (l : Fin 64 → EReal) (e : Fin 64) : EReal :=
  Ideal.div (expShifted l e) (∑ e' : Fin 64, expShifted l e')

/-- The logits of a token from the seven arguments. -/
def tokenLogit (x : Fin 768 → EReal) (W1 : Fin 768 → Fin 768 → EReal) (g b : Fin 768 → EReal)
    (W2 : Fin 64 → Fin 768 → EReal) (b2 eb : Fin 64 → EReal) : Fin 64 → EReal :=
  logit (activation x W1 g b) W2 b2 eb

/-- Variance + ε is strictly positive, whatever the row holds: a mean of squares is non-negative, ε is positive. -/
theorem varEps_pos (h : Fin 768 → EReal) : 0 < varEps h := by
  unfold varEps rowMean
  have h0 : (0 : EReal) ≤ Ideal.div (∑ j : Fin 768, centred h j * centred h j) (Ideal.ofBits .f32 0x44400000#32) :=
    div_nonneg_of_pos (Finset.sum_nonneg fun j _ => mul_self_nonneg _) ofBits_768_pos
  exact lt_of_lt_of_le ofBits_eps_pos (le_add_of_nonneg_left h0)

/-- Dividing the centred row by √(variance + ε) gives the normalised row. -/
theorem normalised_of_div_sqrt (h g b : Fin 768 → EReal) (j : Fin 768) :
    Ideal.div (centred h j) (Ideal.sqrt (varEps h)) * g j + b j = normalised h g b j := by
  unfold normalised
  rw [mul_rsqrt_eq_div_sqrt _ (varEps_pos h)]

/-- The logistic function spelt out with the pattern of 1.0. -/
theorem silu_of_spelt (y : EReal) :
    y * Ideal.div (Ideal.ofBits .f32 0x3F800000#32) (Ideal.ofBits .f32 0x3F800000#32 + Ideal.exp (-y)) = silu y := by
  rw [Ideal.ofBits_one_f32]; rfl

/-- Contracting with W2 on the right is contracting on the left. -/
theorem logit_of_right (a : Fin 768 → EReal) (W2 : Fin 64 → Fin 768 → EReal) (b2 eb : Fin 64 → EReal) (e : Fin 64) :
    Ideal.div ((∑ k : Fin 768, a k * W2 e k) + b2 e + eb e) (Ideal.ofBits .f32 0x3DCCCCCD#32) = logit a W2 b2 eb e := by
  unfold logit
  rw [Finset.sum_congr rfl fun k _ => mul_comm (a k) (W2 e k)]

/-- A maximum taken from −∞, compared once more with −∞, is itself. -/
theorem max_rowMax (l : Fin 64 → EReal) : max (Ideal.ofBits .f32 0xFF800000#32) (rowMax l) = rowMax l :=
  max_eq_right ((Finset.le_fold_max _).mpr (Or.inl le_rfl))

end Cert.Router

end
-- ==== Proof.ReferenceRows.lean ====
/-
  The reference program, stage by stage, is the router's per-token functions.

  Every stage of the reference is read at an index (r, ·) of token r and shown to be the corresponding function of the
  token's feature row x(r, ·) alone: the product with W1 transposed is the hidden row; the two sums over the feature axis
  divided by 768 are its mean and the mean of its centred squares; the quotient by the square root of variance + ε is
  the normalised row (the positivity of variance + ε turns the quotient into the product with the reciprocal square
  root); 1 / (1 + exp (−y)) is the logistic function; the product with W2 transposed plus the two biases over 0.1 are
  the logits; the maximum over the experts, compared once more with −∞, is the row maximum; the exponentials of the
  shifted logits over their sum are the weights; and the expert numbers are the second coordinate.
-/
import proofs.«175522_g35725537968797_cont_8to1_b_278_10_alg».proof.Proof.Gen.ReferenceIdeal.Read
import proofs.«175522_g35725537968797_cont_8to1_b_278_10_alg».proof.Proof.RouterRow
import Idealize.ShloMosaic.Lib.ValueIdx
import Idealize.ShloMosaic.PureOps.Ideal.Laws

noncomputable section

namespace Cert.Router.Reference

open Cert.ReferenceIdeal Cert.ReferenceIdeal.Gen Cert.ReferenceIdeal.Read Idealize.ShloMosaic Idealize.ShloMosaic.TcCoe
open Idealize.ShloMosaic.ValueIdx Cert.Router

/-- Two rank-2 indices with the same coordinates. -/
local macro "coords2" : tactic => `(tactic| (funext a; match a with | ⟨0, _⟩ => rfl | ⟨1, _⟩ => rfl))
/-- Two rank-1 indices with the same coordinate. -/
local macro "coords1" : tactic => `(tactic| (funext a; match a with | ⟨0, _⟩ => rfl))

variable (x0 : (⟨S32768x768, .f32⟩ : BufTy).Contents (Elt Ideal)) (x1 : (⟨S768x768, .f32⟩ : BufTy).Contents (Elt Ideal))
  (x2 x3 : (⟨S768, .f32⟩ : BufTy).Contents (Elt Ideal)) (x4 : (⟨S64x768, .f32⟩ : BufTy).Contents (Elt Ideal))
  (x5 x6 : (⟨S64, .f32⟩ : BufTy).Contents (Elt Ideal))

/-- Row r of the token array. -/
abbrev tok (r : Fin 32768) : Fin 768 → EReal := fun k => x0 (ix2 r k)
/-- W1 by its two coordinates. -/
abbrev w1 : Fin 768 → Fin 768 → EReal := fun j k => x1 (ix2 j k)

/-- The product with W1 transposed, at (r, j), is the hidden row of token r at j. -/
theorem hidden_at (r : Fin 32768) (j : Fin 768) :
    val_main_v1 (F := Ideal) x0 x1 (ix2 r j) = hidden (tok x0 r) (w1 x1) j := by
  rw [val_main_v1_apply]
  unfold hidden
  refine Finset.sum_congr rfl fun k _ => ?_
  rw [val_main_v0_apply,
    show lidx_main_v1 (ix2 r j) k = ix2 r k by coords2,
    show idx_main_v0 (ridx_main_v1 (ix2 r j) k) = ix2 j k by coords2]

/-- The row sum over 768, at (r, ·), is the mean of the hidden row. -/
theorem mean_at (r : Fin 32768) (u : Fin 1) :
    val_main_v5 (F := Ideal) x0 x1 (ix2 r u) = rowMean (hidden (tok x0 r) (w1 x1)) := by
  rw [val_main_v5_apply, val_main_v3_apply, val_main_v2_apply, val_main_v4_apply, val_main_cst_0_apply, val_main_cst_apply]
  simp only [Ideal.hostDivf_def, Ideal.ofBits_def, Ideal.ofBits_zero_f32, zero_add]
  unfold rowMean
  refine congrArg (Ideal.div · _) (Finset.sum_congr rfl fun k _ => ?_)
  rw [show idx_main_v2 (idx_main_v3 (ix2 r u)) k = ix2 r k by coords2]
  exact hidden_at x0 x1 r k

/-- The hidden row minus its mean, at (r, j): first spelling. -/
theorem centred_at (r : Fin 32768) (j : Fin 768) :
    val_main_v7 (F := Ideal) x0 x1 (ix2 r j) = centred (hidden (tok x0 r) (w1 x1)) j := by
  rw [val_main_v7_apply, val_main_v6_apply, show idx_main_v6 (ix2 r j) = ix2 r (0 : Fin 1) by coords2,
    hidden_at, mean_at]
  rfl

/-- The hidden row minus its mean, at (r, j): second spelling. -/
theorem centred_at' (r : Fin 32768) (j : Fin 768) :
    val_main_v14 (F := Ideal) x0 x1 (ix2 r j) = centred (hidden (tok x0 r) (w1 x1)) j := by
  rw [val_main_v14_apply, val_main_v13_apply, show idx_main_v13 (ix2 r j) = ix2 r (0 : Fin 1) by coords2,
    hidden_at, mean_at]
  rfl

/-- The mean of the centred squares plus ε, at (r, ·). -/
theorem varEps_at (r : Fin 32768) (u : Fin 1) :
    val_main_v16 (F := Ideal) x0 x1 (ix2 r u) = varEps (hidden (tok x0 r) (w1 x1)) := by
  rw [val_main_v16_apply, val_main_v12_apply, val_main_v10_apply, val_main_v9_apply, val_main_v11_apply,
    val_main_v15_apply, val_main_cst_1_apply, val_main_cst_2_apply, val_main_cst_3_apply]
  simp only [Ideal.hostDivf_def, Ideal.addf_def, Ideal.ofBits_def, Ideal.ofBits_zero_f32, zero_add]
  unfold varEps rowMean
  refine congrArg (· + _) (congrArg (Ideal.div · _) (Finset.sum_congr rfl fun k _ => ?_))
  rw [show idx_main_v9 (idx_main_v10 (ix2 r u)) k = ix2 r k by coords2, val_main_v8_apply, centred_at]
  rfl

/-- The normalised row, at (r, j). -/
theorem normalised_at (r : Fin 32768) (j : Fin 768) :
    val_main_v25 (F := Ideal) x0 x1 x2 x3 (ix2 r j)
      = normalised (hidden (tok x0 r) (w1 x1)) (fun j => x2 (ix1 j)) (fun j => x3 (ix1 j)) j := by
  rw [val_main_v25_apply, val_main_v22_apply, val_main_v19_apply, val_main_v18_apply, val_main_v17_apply,
    show idx_main_v18 (ix2 r j) = ix2 r (0 : Fin 1) by coords2, varEps_at, centred_at',
    val_main_v21_apply, val_main_v20_apply, val_main_v24_apply, val_main_v23_apply,
    show idx_main_v20 (idx_main_v21 (ix2 r j)) = ix1 j by coords1,
    show idx_main_v23 (idx_main_v24 (ix2 r j)) = ix1 j by coords1]
  exact normalised_of_div_sqrt (hidden (tok x0 r) (w1 x1)) (fun j => x2 (ix1 j)) (fun j => x3 (ix1 j)) j

/-- The activated row, at (r, j). -/
theorem activation_at (r : Fin 32768) (j : Fin 768) :
    val_main_v32 (F := Ideal) x0 x1 x2 x3 (ix2 r j)
      = activation (tok x0 r) (w1 x1) (fun j => x2 (ix1 j)) (fun j => x3 (ix1 j)) j := by
  rw [val_main_v32_apply, val_main_v31_apply, val_main_v30_apply, val_main_v29_apply, val_main_v28_apply,
    val_main_v27_apply, val_main_v26_apply, val_main_cst_4_apply, val_main_cst_5_apply, normalised_at]
  exact silu_of_spelt _

/-- The logits, at (r, e). -/
theorem logit_at (r : Fin 32768) (e : Fin 64) :
    val_main_v42 (F := Ideal) x0 x1 x2 x3 x4 x5 x6 (ix2 r e)
      = tokenLogit (tok x0 r) (w1 x1) (fun j => x2 (ix1 j)) (fun j => x3 (ix1 j)) (fun e k => x4 (ix2 e k))
          (fun e => x5 (ix1 e)) (fun e => x6 (ix1 e)) e := by
  rw [val_main_v42_apply, val_main_v40_apply, val_main_v37_apply, val_main_v34_apply, val_main_v41_apply,
    val_main_cst_6_apply, val_main_v36_apply, val_main_v35_apply, val_main_v39_apply, val_main_v38_apply,
    show idx_main_v35 (idx_main_v36 (ix2 r e)) = ix1 e by coords1,
    show idx_main_v38 (idx_main_v39 (ix2 r e)) = ix1 e by coords1]
  unfold tokenLogit
  refine Eq.trans ?_ (logit_of_right _ _ _ _ e)
  simp only [Ideal.hostDivf_def, Ideal.addf_def, Ideal.ofBits_def]
  refine congrArg (Ideal.div · _) (congrArg (· + _) (congrArg (· + _) (Finset.sum_congr rfl fun k _ => ?_)))
  rw [val_main_v33_apply, show lidx_main_v34 (ix2 r e) k = ix2 r k by coords2,
    show idx_main_v33 (ridx_main_v34 (ix2 r e) k) = ix2 e k by coords2, activation_at]

end Cert.Router.Reference

end
-- ==== Proof.RouterArrays.lean ====
/-
  The router's three results as functions of the seven argument arrays.

  Token r's logits are the per-token function of row r of x and of W1, g, b, W2, b2, eb; its weights are the softmax
  of those logits; the expert numbers are 0 … 63 for every token.  Each result is stated twice: tokens by experts, the
  layout the results are returned in, and experts by tokens, the layout in which a block of 2048 tokens is produced.
  The second is the transpose of the first.  The bias and scale vectors may also arrive already reshaped, as a row
  [1, 768] or a column [64, 1]; read at their unit coordinate they are the same vectors.
-/
import proofs.«175522_g35725537968797_cont_8to1_b_278_10_alg».proof.Proof.RouterRow
import Idealize.ShloMosaic.Lib.ValueIdx

noncomputable section

namespace Cert.Router

open Idealize.ShloMosaic Idealize.ShloMosaic.ValueIdx

/-- The per-token logits depend on their seven arguments only through their values. -/
theorem tokenLogit_congr {x x' : Fin 768 → EReal} {W1 W1' : Fin 768 → Fin 768 → EReal} {g g' b b' : Fin 768 → EReal}
    {W2 W2' : Fin 64 → Fin 768 → EReal} {b2 b2' eb eb' : Fin 64 → EReal}
    (h0 : ∀ k, x k = x' k) (h1 : ∀ j k, W1 j k = W1' j k) (h2 : ∀ j, g j = g' j) (h3 : ∀ j, b j = b' j)
    (h4 : ∀ e k, W2 e k = W2' e k) (h5 : ∀ e, b2 e = b2' e) (h6 : ∀ e, eb e = eb' e) :
    tokenLogit x W1 g b W2 b2 eb = tokenLogit x' W1' g' b' W2' b2' eb' := by
  obtain rfl : x = x' := funext h0
  obtain rfl : W1 = W1' := funext fun j => funext (h1 j)
  obtain rfl : g = g' := funext h2
  obtain rfl : b = b' := funext h3
  obtain rfl : W2 = W2' := funext fun e => funext (h4 e)
  obtain rfl : b2 = b2' := funext h5
  obtain rfl : eb = eb' := funext h6
  rfl

/-- Token r's logits from the argument arrays, the bias and scale vectors as row [1, 768] and column [64, 1] arrays. -/
def logitAt (x0 : (⟨2, ![32768, 768]⟩ : Shape).Idx → EReal) (x1 : (⟨2, ![768, 768]⟩ : Shape).Idx → EReal)
    (g b : (⟨2, ![1, 768]⟩ : Shape).Idx → EReal) (w2 : (⟨2, ![64, 768]⟩ : Shape).Idx → EReal)
    (b2 eb : (⟨2, ![64, 1]⟩ : Shape).Idx → EReal) (r : Fin 32768) : Fin 64 → EReal :=
  tokenLogit (fun k => x0 (ix2 r k)) (fun j k => x1 (ix2 j k)) (fun j => g (ix2 (0 : Fin 1) j))
    (fun j => b (ix2 (0 : Fin 1) j)) (fun e k => w2 (ix2 e k)) (fun e => b2 (ix2 e (0 : Fin 1)))
    (fun e => eb (ix2 e (0 : Fin 1)))

/-- The same from the vectors themselves. -/
def logitOf (x0 : (⟨2, ![32768, 768]⟩ : Shape).Idx → EReal) (x1 : (⟨2, ![768, 768]⟩ : Shape).Idx → EReal)
    (x2 x3 : (⟨1, ![768]⟩ : Shape).Idx → EReal) (x4 : (⟨2, ![64, 768]⟩ : Shape).Idx → EReal)
    (x5 x6 : (⟨1, ![64]⟩ : Shape).Idx → EReal) (r : Fin 32768) : Fin 64 → EReal :=
  tokenLogit (fun k => x0 (ix2 r k)) (fun j k => x1 (ix2 j k)) (fun j => x2 (ix1 j)) (fun j => x3 (ix1 j))
    (fun e k => x4 (ix2 e k)) (fun e => x5 (ix1 e)) (fun e => x6 (ix1 e))

/-- Logits, tokens by experts. -/
def logitsArr (x0 : (⟨2, ![32768, 768]⟩ : Shape).Idx → EReal) (x1 : (⟨2, ![768, 768]⟩ : Shape).Idx → EReal)
    (x2 x3 : (⟨1, ![768]⟩ : Shape).Idx → EReal) (x4 : (⟨2, ![64, 768]⟩ : Shape).Idx → EReal)
    (x5 x6 : (⟨1, ![64]⟩ : Shape).Idx → EReal) : (⟨2, ![32768, 64]⟩ : Shape).Idx → EReal :=
  fun i => logitOf x0 x1 x2 x3 x4 x5 x6 (i 0) (i 1)

/-- Weights, tokens by experts. -/
def weightsArr (x0 : (⟨2, ![32768, 768]⟩ : Shape).Idx → EReal) (x1 : (⟨2, ![768, 768]⟩ : Shape).Idx → EReal)
    (x2 x3 : (⟨1, ![768]⟩ : Shape).Idx → EReal) (x4 : (⟨2, ![64, 768]⟩ : Shape).Idx → EReal)
    (x5 x6 : (⟨1, ![64]⟩ : Shape).Idx → EReal) : (⟨2, ![32768, 64]⟩ : Shape).Idx → EReal :=
  fun i => weight (logitOf x0 x1 x2 x3 x4 x5 x6 (i 0)) (i 1)

/-- Expert numbers, tokens by experts. -/
def expertsArr : (⟨2, ![32768, 64]⟩ : Shape).Idx → BitVec 32 := fun i => BitVec.ofNat 32 (i 1).val

/-- Logits, experts by tokens. -/
def logitsT (x0 : (⟨2, ![32768, 768]⟩ : Shape).Idx → EReal) (x1 : (⟨2, ![768, 768]⟩ : Shape).Idx → EReal)
    (g b : (⟨2, ![1, 768]⟩ : Shape).Idx → EReal) (w2 : (⟨2, ![64, 768]⟩ : Shape).Idx → EReal)
    (b2 eb : (⟨2, ![64, 1]⟩ : Shape).Idx → EReal) : (⟨2, ![64, 32768]⟩ : Shape).Idx → EReal :=
  fun i => logitAt x0 x1 g b w2 b2 eb (i 1) (i 0)

/-- Weights, experts by tokens. -/
def weightsT (x0 : (⟨2, ![32768, 768]⟩ : Shape).Idx → EReal) (x1 : (⟨2, ![768, 768]⟩ : Shape).Idx → EReal)
    (g b : (⟨2, ![1, 768]⟩ : Shape).Idx → EReal) (w2 : (⟨2, ![64, 768]⟩ : Shape).Idx → EReal)
    (b2 eb : (⟨2, ![64, 1]⟩ : Shape).Idx → EReal) : (⟨2, ![64, 32768]⟩ : Shape).Idx → EReal :=
  fun i => weight (logitAt x0 x1 g b w2 b2 eb (i 1)) (i 0)

/-- Expert numbers, experts by tokens. -/
def expertsT : (⟨2, ![64, 32768]⟩ : Shape).Idx → BitVec 32 := fun i => BitVec.ofNat 32 (i 0).val

end Cert.Router

end
-- ==== Proof.ReferenceArrays.lean ====
/-
  The reference's three results are the router's arrays.

  The maximum over the experts of token r's logits, compared once more with −∞, is the row maximum; the exponentials
  of the shifted logits over their sum over the experts are the softmax weights; the expert numbers are the second
  coordinate.  With the logits read earlier, each result of the reference is, index by index, the corresponding array
  of the router as a function of the seven arguments.
-/
import proofs.«175522_g35725537968797_cont_8to1_b_278_10_alg».proof.Proof.ReferenceRows
import proofs.«175522_g35725537968797_cont_8to1_b_278_10_alg».proof.Proof.RouterArrays

noncomputable section

namespace Cert.Router.Reference

open Cert.ReferenceIdeal Cert.ReferenceIdeal.Gen Cert.ReferenceIdeal.Read Idealize.ShloMosaic Idealize.ShloMosaic.TcCoe
open Idealize.ShloMosaic.ValueIdx Cert.Router

local macro "coords2" : tactic => `(tactic| (funext a; match a with | ⟨0, _⟩ => rfl | ⟨1, _⟩ => rfl))
local macro "coords1" : tactic => `(tactic| (funext a; match a with | ⟨0, _⟩ => rfl))

variable (x0 : (⟨S32768x768, .f32⟩ : BufTy).Contents (Elt Ideal)) (x1 : (⟨S768x768, .f32⟩ : BufTy).Contents (Elt Ideal))
  (x2 x3 : (⟨S768, .f32⟩ : BufTy).Contents (Elt Ideal)) (x4 : (⟨S64x768, .f32⟩ : BufTy).Contents (Elt Ideal))
  (x5 x6 : (⟨S64, .f32⟩ : BufTy).Contents (Elt Ideal))

/-- The logits at (r, e), over the arrays' own functions. -/
theorem logitOf_at (r : Fin 32768) (e : Fin 64) :
    val_main_v42 (F := Ideal) x0 x1 x2 x3 x4 x5 x6 (ix2 r e) = logitOf x0 x1 x2 x3 x4 x5 x6 r e :=
  logit_at x0 x1 x2 x3 x4 x5 x6 r e

/-- The maximum over the experts, at token r. -/
theorem rowMax_at (r : Fin 32768) :
    val_main_v45 (F := Ideal) x0 x1 x2 x3 x4 x5 x6 (ix1 r) = rowMax (logitOf x0 x1 x2 x3 x4 x5 x6 r) := by
  have hR : S32768x64.Reduces [1] S32768 := by decide
  have h43 : val_main_v43 (F := Ideal) x0 x1 x2 x3 x4 x5 x6 (ix1 r) = rowMax (logitOf x0 x1 x2 x3 x4 x5 x6 r) := by
    unfold val_main_v43
    refine (Host.reduce_eq_fold_single (α := Ideal .f32) (s := S32768x64) (t := S32768) (u := S_)
      (FloatOps.maximumf (F := Ideal) (φ := .f32))
      (val_main_v42 (F := Ideal) x0 x1 x2 x3 x4 x5 x6 : S32768x64.Idx → Ideal .f32)
      (val_main_cst_7 (F := Ideal) : S_.Idx → Ideal .f32) reducesTo_S32768x64_S32768_d1 hR h_S_ (ix1 r)).trans ?_
    unfold rowMax
    show Finset.fold max (Ideal.ofBits .f32 0xFF800000#32)
      (fun e : Fin 64 => val_main_v42 (F := Ideal) x0 x1 x2 x3 x4 x5 x6 (hR.lift (ix1 r) e)) Finset.univ = _
    refine congrArg (fun f : Fin 64 → EReal => Finset.fold max (Ideal.ofBits .f32 0xFF800000#32) f Finset.univ)
      (funext fun e => ?_)
    rw [show hR.lift (ix1 r) e = ix2 r e by coords2]
    exact logitOf_at x0 x1 x2 x3 x4 x5 x6 r e
  rw [val_main_v45_apply, val_main_v44_apply, val_main_cst_8_apply, h43]
  exact max_rowMax _

/-- The shifted exponential at (r, e). -/
theorem expShifted_at (r : Fin 32768) (e : Fin 64) :
    val_main_v49 (F := Ideal) x0 x1 x2 x3 x4 x5 x6 (ix2 r e) = expShifted (logitOf x0 x1 x2 x3 x4 x5 x6 r) e := by
  rw [val_main_v49_apply, val_main_v48_apply, val_main_v47_apply, val_main_v46_apply,
    show idx_main_v46 (idx_main_v47 (ix2 r e)) = ix1 r by coords1, rowMax_at, logitOf_at]
  rfl

/-- The weights at (r, e). -/
theorem weight_at (r : Fin 32768) (e : Fin 64) :
    val_main_v53 (F := Ideal) x0 x1 x2 x3 x4 x5 x6 (ix2 r e) = weight (logitOf x0 x1 x2 x3 x4 x5 x6 r) e := by
  rw [val_main_v53_apply, val_main_v52_apply, val_main_v51_apply, val_main_v50_apply, val_main_cst_9_apply, expShifted_at]
  simp only [Ideal.hostDivf_def, Ideal.ofBits_def, Ideal.ofBits_zero_f32, zero_add]
  unfold weight
  refine congrArg (Ideal.div _ ·) (Finset.sum_congr rfl fun k _ => ?_)
  rw [show idx_main_v50 (idx_main_v51 (idx_main_v52 (ix2 r e))) k = ix2 r k by coords2]
  exact expShifted_at x0 x1 x2 x3 x4 x5 x6 r k

/-- The reference's logits are the router's. -/
theorem logits_eq : val_main_v42 (F := Ideal) x0 x1 x2 x3 x4 x5 x6 = logitsArr x0 x1 x2 x3 x4 x5 x6 := by
  funext i
  obtain ⟨r, e, rfl⟩ : ∃ (r : Fin 32768) (e : Fin 64), i = ix2 r e := ⟨i 0, i 1, eq_ix2 i⟩
  exact logitOf_at x0 x1 x2 x3 x4 x5 x6 r e

/-- The reference's weights are the router's. -/
theorem weights_eq : val_main_v53 (F := Ideal) x0 x1 x2 x3 x4 x5 x6 = weightsArr x0 x1 x2 x3 x4 x5 x6 := by
  funext i
  obtain ⟨r, e, rfl⟩ : ∃ (r : Fin 32768) (e : Fin 64), i = ix2 r e := ⟨i 0, i 1, eq_ix2 i⟩
  exact weight_at x0 x1 x2 x3 x4 x5 x6 r e

/-- The reference's expert numbers are the router's. -/
theorem experts_eq : val_main_v55 (F := Ideal) = expertsArr := by
  funext i
  obtain ⟨r, e, rfl⟩ : ∃ (r : Fin 32768) (e : Fin 64), i = ix2 r e := ⟨i 0, i 1, eq_ix2 i⟩
  rw [val_main_v55_apply, val_main_v54_apply]
  rfl

end Cert.Router.Reference

end
-- ==== Proof.LibKeepdims.lean ====
/-
  Two layout operations of a sum taken with the reduced axis kept, read at an index.  A vector of length a viewed as
  a column [a, 1] holds, at (i, 0), the vector's entry i; a column [a, 1] broadcast along a new second axis to [a, b]
  holds, at (i, c), the column's entry (i, 0).  Together they say that a row-wise quantity, kept as a column and
  spread over a block, is read at (i, c) as the quantity of row i.
-/
import Idealize.ShloMosaic.Lib.Pipeline.Value
import Idealize.ShloMosaic.Lib.ValueIdx

namespace Idealize.ShloMosaic.ValueIdx

variable {α : Type}

/-- A vector [a] cast to a column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (i, c), the column's entry of row i. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.KernelBlocks.lean ====
/-
  Where the blocks of one launch lie in their arrays.

  The launch has sixteen points.  At point t the token window holds rows t·2048 … t·2048 + 2047 of x; the windows of
  W1, g, b, W2, b2 and eb hold those arrays whole at every point; each of the three result windows holds columns
  t·2048 … t·2048 + 2047 of its experts-by-tokens array, all 64 rows.  So entry (q, k) of the token block at point t
  is x at (t·2048 + q, k), entry (e, q) of a result block lands at (e, t·2048 + q), and every column of a result array
  lies in the block of exactly the point column / 2048: the sixteen blocks cover the array.

  The row arrays [1, 768] and the column arrays [64, 1] that the launch reads are the vectors g, b and b2, eb reshaped
  before the launch; read at their unit coordinate they are the vectors.
-/
import proofs.«175522_g35725537968797_cont_8to1_b_278_10_alg».proof.Proof.Gen.KernelIdeal.Frame
import proofs.«175522_g35725537968797_cont_8to1_b_278_10_alg».proof.Proof.LibKeepdims
import Idealize.ShloMosaic.Lib.Pipeline.Value
import Idealize.ShloMosaic.Lib.ValueIdx
import Idealize.ShloMosaic.Lib.ValueLayout
import Idealize.ShloMosaic.Lib.StableHlo.Run

noncomputable section

namespace Cert.Router.Kernel

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-- The zero offsets of a whole-buffer access. -/
theorem hz : (![0, 0] : Fin 2 → Nat) = fun _ => 0 := funext fun a => by fin_cases a <;> rfl

/-- The launch has sixteen points. -/
theorem points : cfg0.N = 16 := N_0

/-! ## The index maps, decided over the sixteen points -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = t.val :=
  (by decide +kernel : ∀ t : Fin grid0.N, _)
theorem idx8 : ∀ t : Fin cfg0.N, win0_8.index t (0 : Fin 2) = 0 ∧ win0_8.index t (1 : Fin 2) = t.val :=
  (by decide +kernel : ∀ t : Fin grid0.N, _)
theorem idx9 : ∀ t : Fin cfg0.N, win0_9.index t (0 : Fin 2) = 0 ∧ win0_9.index t (1 : Fin 2) = t.val :=
  (by decide +kernel : ∀ t : Fin grid0.N, _)

/-- The token that row q of the block at point t is. -/
def tokenOf (t : Fin cfg0.N) (q : Fin 2048) : Fin 32768 :=
  ⟨t.val * 2048 + q.val, by have := t.isLt; have hN : cfg0.N = 16 := N_0; have := q.isLt; omega⟩

theorem tokenOf_val (t : Fin cfg0.N) (q : Fin 2048) : (tokenOf t q).val = t.val * 2048 + q.val := rfl

/-! ## The input blocks, read in their arrays -/

/-- Row q of the token block at point t is row t·2048 + q of x. -/
theorem blk0 (c : Dev nD) (t : Fin cfg0.N) (q : Fin 2048) (k : Fin 768) :
    iblk m c 0 t (ix2 q k) = V m c main_arg0 (ix2 (tokenOf t q) k) := by
  show V m c main_arg0 (((cfg0.win 0).blk t).view.emb (ix2 q k)) = _
  refine congrArg (V m c main_arg0) (funext fun a => Fin.ext ?_)
  obtain ⟨e0, e1⟩ := idx0 t
  match a with
  | ⟨0, _⟩ => show win0_0.index t (0 : Fin 2) * 2048 + 1 * q.val = t.val * 2048 + q.val; rw [e0]; omega
  | ⟨1, _⟩ => show win0_0.index t (1 : Fin 2) * 768 + 1 * k.val = k.val; rw [e1]; omega

/-- W1's window holds W1 whole. -/
theorem blk1 (c : Dev nD) (t : Fin cfg0.N) (j : Fin 768) (k : Fin 768) :
    iblk m c 1 t (ix2 j k) = V m c main_arg1 (ix2 j k) := by
  show V m c main_arg1 (((cfg0.win 1).blk t).view.emb (ix2 j k)) = _
  refine congrArg (V m c main_arg1) (funext fun a => Fin.ext ?_)
  obtain ⟨e0, e1⟩ := idx1 t
  match a with
  | ⟨0, _⟩ => show win0_1.index t (0 : Fin 2) * 768 + 1 * j.val = j.val; rw [e0]; omega
  | ⟨1, _⟩ => show win0_1.index t (1 : Fin 2) * 768 + 1 * k.val = k.val; rw [e1]; omega

/-- The window of the row g holds it whole. -/
theorem blk2 (c : Dev nD) (t : Fin cfg0.N) (u : Fin 1) (j : Fin 768) :
    iblk m c 2 t (ix2 u j) = V m c main_call0_v0 (ix2 u j) := by
  show V m c main_call0_v0 (((cfg0.win 2).blk t).view.emb (ix2 u j)) = _
  refine congrArg (V m c main_call0_v0) (funext fun a => Fin.ext ?_)
  obtain ⟨e0, e1⟩ := idx2 t
  match a with
  | ⟨0, _⟩ => show win0_2.index t (0 : Fin 2) * 1 + 1 * u.val = u.val; rw [e0]; omega
  | ⟨1, _⟩ => show win0_2.index t (1 : Fin 2) * 768 + 1 * j.val = j.val; rw [e1]; omega

/-- The window of the row b holds it whole. -/
theorem blk3 (c : Dev nD) (t : Fin cfg0.N) (u : Fin 1) (j : Fin 768) :
    iblk m c 3 t (ix2 u j) = V m c main_call0_v1 (ix2 u j) := by
  show V m c main_call0_v1 (((cfg0.win 3).blk t).view.emb (ix2 u j)) = _
  refine congrArg (V m c main_call0_v1) (funext fun a => Fin.ext ?_)
  obtain ⟨e0, e1⟩ := idx3 t
  match a with
  | ⟨0, _⟩ => show win0_3.index t (0 : Fin 2) * 1 + 1 * u.val = u.val; rw [e0]; omega
  | ⟨1, _⟩ => show win0_3.index t (1 : Fin 2) * 768 + 1 * j.val = j.val; rw [e1]; omega

/-- W2's window holds W2 whole. -/
theorem blk4 (c : Dev nD) (t : Fin cfg0.N) (e : Fin 64) (k : Fin 768) :
    iblk m c 4 t (ix2 e k) = V m c main_arg4 (ix2 e k) := by
  show V m c main_arg4 (((cfg0.win 4).blk t).view.emb (ix2 e k)) = _
  refine congrArg (V m c main_arg4) (funext fun a => Fin.ext ?_)
  obtain ⟨e0, e1⟩ := idx4 t
  match a with
  | ⟨0, _⟩ => show win0_4.index t (0 : Fin 2) * 64 + 1 * e.val = e.val; rw [e0]; omega
  | ⟨1, _⟩ => show win0_4.index t (1 : Fin 2) * 768 + 1 * k.val = k.val; rw [e1]; omega

/-- The window of the column b2 holds it whole. -/
theorem blk5 (c : Dev nD) (t : Fin cfg0.N) (e : Fin 64) (u : Fin 1) :
    iblk m c 5 t (ix2 e u) = V m c main_call0_v2 (ix2 e u) := by
  show V m c main_call0_v2 (((cfg0.win 5).blk t).view.emb (ix2 e u)) = _
  refine congrArg (V m c main_call0_v2) (funext fun a => Fin.ext ?_)
  obtain ⟨e0, e1⟩ := idx5 t
  match a with
  | ⟨0, _⟩ => show win0_5.index t (0 : Fin 2) * 64 + 1 * e.val = e.val; rw [e0]; omega
  | ⟨1, _⟩ => show win0_5.index t (1 : Fin 2) * 1 + 1 * u.val = u.val; rw [e1]; omega

/-- The window of the column eb holds it whole. -/
theorem blk6 (c : Dev nD) (t : Fin cfg0.N) (e : Fin 64) (u : Fin 1) :
    iblk m c 6 t (ix2 e u) = V m c main_call0_v3 (ix2 e u) := by
  show V m c main_call0_v3 (((cfg0.win 6).blk t).view.emb (ix2 e u)) = _
  refine congrArg (V m c main_call0_v3) (funext fun a => Fin.ext ?_)
  obtain ⟨e0, e1⟩ := idx6 t
  match a with
  | ⟨0, _⟩ => show win0_6.index t (0 : Fin 2) * 64 + 1 * e.val = e.val; rw [e0]; omega
  | ⟨1, _⟩ => show win0_6.index t (1 : Fin 2) * 1 + 1 * u.val = u.val; rw [e1]; omega

/-! ## The reshaped vectors -/

/-- The row [1, 768] made from g before the launch, read at (·, j), is g at j. -/
theorem V_g (c : Dev nD) (u : Fin 1) (j : Fin 768) :
    V m c main_call0_v0 (ix2 u j) = m ((c : Thread nD τ).loc main_arg2) (ix1 j) := by
  have h : (V m c main_call0_v0 : S1x768.Idx → EReal)
      = shapeCast S1x768 (m ((c : Thread nD τ).loc main_arg2)) shapeCasts_S768_S1x768 := by
    show StableHlo.after hostOps0 (fun b => m (c, b)) (Proc.devRef .tc main_call0_v0) = _
    after_results
    rfl
  exact (congrFun h (ix2 u j)).trans (shapeCast_a_1a_apply _ _ u j)

/-- The row [1, 768] made from b before the launch, read at (·, j), is b at j. -/
theorem V_b (c : Dev nD) (u : Fin 1) (j : Fin 768) :
    V m c main_call0_v1 (ix2 u j) = m ((c : Thread nD τ).loc main_arg3) (ix1 j) := by
  have h : (V m c main_call0_v1 : S1x768.Idx → EReal)
      = shapeCast S1x768 (m ((c : Thread nD τ).loc main_arg3)) shapeCasts_S768_S1x768 := by
    show StableHlo.after hostOps0 (fun b => m (c, b)) (Proc.devRef .tc main_call0_v1) = _
    after_results
    rfl
  exact (congrFun h (ix2 u j)).trans (shapeCast_a_1a_apply _ _ u j)

/-- The column [64, 1] made from b2 before the launch, read at (e, ·), is b2 at e. -/
theorem V_b2 (c : Dev nD) (e : Fin 64) (u : Fin 1) :
    V m c main_call0_v2 (ix2 e u) = m ((c : Thread nD τ).loc main_arg5) (ix1 e) := by
  have h : (V m c main_call0_v2 : S64x1.Idx → EReal)
      = shapeCast S64x1 (m ((c : Thread nD τ).loc main_arg5)) shapeCasts_S64_S64x1 := by
    show StableHlo.after hostOps0 (fun b => m (c, b)) (Proc.devRef .tc main_call0_v2) = _
    after_results
    rfl
  exact (congrFun h (ix2 e u)).trans (shapeCast_a_a1_apply _ _ e u)

/-- The column [64, 1] made from eb before the launch, read at (e, ·), is eb at e. -/
theorem V_eb (c : Dev nD) (e : Fin 64) (u : Fin 1) :
    V m c main_call0_v3 (ix2 e u) = m ((c : Thread nD τ).loc main_arg6) (ix1 e) := by
  have h : (V m c main_call0_v3 : S64x1.Idx → EReal)
      = shapeCast S64x1 (m ((c : Thread nD τ).loc main_arg6)) shapeCasts_S64_S64x1 := by
    show StableHlo.after hostOps0 (fun b => m (c, b)) (Proc.devRef .tc main_call0_v3) = _
    after_results
    rfl
  exact (congrFun h (ix2 e u)).trans (shapeCast_a_a1_apply _ _ e u)

/-! ## The result blocks: where an entry lands, and the cover -/

/-- Entry (e, q) of result window 7's block at point t lands at (e, t·2048 + q). -/
theorem emb7 (t : Fin cfg0.N) (e : Fin 64) (q : Fin 2048) :
    ((cfg0.win 7).blk t).view.emb (ix2 e q) = ix2 e (tokenOf t q) := by
  funext a; apply Fin.ext
  obtain ⟨e0, e1⟩ := idx7 t
  match a with
  | ⟨0, _⟩ => show win0_7.index t (0 : Fin 2) * 64 + 1 * e.val = e.val; rw [e0]; omega
  | ⟨1, _⟩ => show win0_7.index t (1 : Fin 2) * 2048 + 1 * q.val = t.val * 2048 + q.val; rw [e1]; omega

/-- An index is in point t's block of window 7 iff each coordinate is in the block's range on its axis. -/
theorem mem_blk7 (t : Fin cfg0.N) (i : S64x32768.Idx) :
    i ∈ ((cfg0.win 7).blk t).view.set ↔ ∀ a : Fin 2, win0_7.index t a * S64x2048.size a ≤ (i a).val ∧ (i a).val < win0_7.index t a * S64x2048.size a + S64x2048.size a := by
  show i ∈ ((View.whole main_call0_v4_0).slice (win0_7.rect t)).set ↔ _
  rw [View.set_slice_whole, Rect.mem_set_unit]
  exact Iff.rfl

/-- Every index of result window 7's array is in the block of the point its column / 2048 names. -/
theorem cover7 (i : S64x32768.Idx) :
    ∃ t : Fin cfg0.N, (cfg0.win 7).flush t = true ∧ i ∈ ((cfg0.win 7).blk t).view.set := by
  have hi0 : (i 0).val < 64 := (i 0).isLt
  have hi1 : (i 1).val < 32768 := (i 1).isLt
  have hN : cfg0.N = 16 := N_0
  refine ⟨⟨(i 1).val / 2048, by omega⟩, flush0_7 _, ?_⟩
  rw [mem_blk7]
  obtain ⟨e0, e1⟩ := idx7 ⟨(i 1).val / 2048, by omega⟩
  intro a
  match a with
  | ⟨0, _⟩ =>
    show win0_7.index _ (0 : Fin 2) * 64 ≤ (i 0).val ∧ (i 0).val < win0_7.index _ (0 : Fin 2) * 64 + 64
    rw [e0]; omega
  | ⟨1, _⟩ =>
    show win0_7.index _ (1 : Fin 2) * 2048 ≤ (i 1).val ∧ (i 1).val < win0_7.index _ (1 : Fin 2) * 2048 + 2048
    rw [e1]
    show (i 1).val / 2048 * 2048 ≤ (i 1).val ∧ (i 1).val < (i 1).val / 2048 * 2048 + 2048
    omega

/-- Entry (e, q) of result window 8's block at point t lands at (e, t·2048 + q). -/
theorem emb8 (t : Fin cfg0.N) (e : Fin 64) (q : Fin 2048) :
    ((cfg0.win 8).blk t).view.emb (ix2 e q) = ix2 e (tokenOf t q) := by
  funext a; apply Fin.ext
  obtain ⟨e0, e1⟩ := idx8 t
  match a with
  | ⟨0, _⟩ => show win0_8.index t (0 : Fin 2) * 64 + 1 * e.val = e.val; rw [e0]; omega
  | ⟨1, _⟩ => show win0_8.index t (1 : Fin 2) * 2048 + 1 * q.val = t.val * 2048 + q.val; rw [e1]; omega

/-- An index is in point t's block of window 8 iff each coordinate is in the block's range on its axis. -/
theorem mem_blk8 (t : Fin cfg0.N) (i : S64x32768.Idx) :
    i ∈ ((cfg0.win 8).blk t).view.set ↔ ∀ a : Fin 2, win0_8.index t a * S64x2048.size a ≤ (i a).val ∧ (i a).val < win0_8.index t a * S64x2048.size a + S64x2048.size a := by
  show i ∈ ((View.whole main_call0_v4_1).slice (win0_8.rect t)).set ↔ _
  rw [View.set_slice_whole, Rect.mem_set_unit]
  exact Iff.rfl

/-- Every index of result window 8's array is in the block of the point its column / 2048 names. -/
theorem cover8 (i : S64x32768.Idx) :
    ∃ t : Fin cfg0.N, (cfg0.win 8).flush t = true ∧ i ∈ ((cfg0.win 8).blk t).view.set := by
  have hi0 : (i 0).val < 64 := (i 0).isLt
  have hi1 : (i 1).val < 32768 := (i 1).isLt
  have hN : cfg0.N = 16 := N_0
  refine ⟨⟨(i 1).val / 2048, by omega⟩, flush0_8 _, ?_⟩
  rw [mem_blk8]
  obtain ⟨e0, e1⟩ := idx8 ⟨(i 1).val / 2048, by omega⟩
  intro a
  match a with
  | ⟨0, _⟩ =>
    show win0_8.index _ (0 : Fin 2) * 64 ≤ (i 0).val ∧ (i 0).val < win0_8.index _ (0 : Fin 2) * 64 + 64
    rw [e0]; omega
  | ⟨1, _⟩ =>
    show win0_8.index _ (1 : Fin 2) * 2048 ≤ (i 1).val ∧ (i 1).val < win0_8.index _ (1 : Fin 2) * 2048 + 2048
    rw [e1]
    show (i 1).val / 2048 * 2048 ≤ (i 1).val ∧ (i 1).val < (i 1).val / 2048 * 2048 + 2048
    omega

/-- Entry (e, q) of result window 9's block at point t lands at (e, t·2048 + q). -/
theorem emb9 (t : Fin cfg0.N) (e : Fin 64) (q : Fin 2048) :
    ((cfg0.win 9).blk t).view.emb (ix2 e q) = ix2 e (tokenOf t q) := by
  funext a; apply Fin.ext
  obtain ⟨e0, e1⟩ := idx9 t
  match a with
  | ⟨0, _⟩ => show win0_9.index t (0 : Fin 2) * 64 + 1 * e.val = e.val; rw [e0]; omega
  | ⟨1, _⟩ => show win0_9.index t (1 : Fin 2) * 2048 + 1 * q.val = t.val * 2048 + q.val; rw [e1]; omega

/-- An index is in point t's block of window 9 iff each coordinate is in the block's range on its axis. -/
theorem mem_blk9 (t : Fin cfg0.N) (i : S64x32768.Idx) :
    i ∈ ((cfg0.win 9).blk t).view.set ↔ ∀ a : Fin 2, win0_9.index t a * S64x2048.size a ≤ (i a).val ∧ (i a).val < win0_9.index t a * S64x2048.size a + S64x2048.size a := by
  show i ∈ ((View.whole main_call0_v4_2).slice (win0_9.rect t)).set ↔ _
  rw [View.set_slice_whole, Rect.mem_set_unit]
  exact Iff.rfl

/-- Every index of result window 9's array is in the block of the point its column / 2048 names. -/
theorem cover9 (i : S64x32768.Idx) :
    ∃ t : Fin cfg0.N, (cfg0.win 9).flush t = true ∧ i ∈ ((cfg0.win 9).blk t).view.set := by
  have hi0 : (i 0).val < 64 := (i 0).isLt
  have hi1 : (i 1).val < 32768 := (i 1).isLt
  have hN : cfg0.N = 16 := N_0
  refine ⟨⟨(i 1).val / 2048, by omega⟩, flush0_9 _, ?_⟩
  rw [mem_blk9]
  obtain ⟨e0, e1⟩ := idx9 ⟨(i 1).val / 2048, by omega⟩
  intro a
  match a with
  | ⟨0, _⟩ =>
    show win0_9.index _ (0 : Fin 2) * 64 ≤ (i 0).val ∧ (i 0).val < win0_9.index _ (0 : Fin 2) * 64 + 64
    rw [e0]; omega
  | ⟨1, _⟩ =>
    show win0_9.index _ (1 : Fin 2) * 2048 ≤ (i 1).val ∧ (i 1).val < win0_9.index _ (1 : Fin 2) * 2048 + 2048
    rw [e1]
    show (i 1).val / 2048 * 2048 ≤ (i 1).val ∧ (i 1).val < (i 1).val / 2048 * 2048 + 2048
    omega

end Cert.Router.Kernel

end
-- ==== Proof.BlockStages.lean ====
/-
  One block of 2048 tokens: the stages of the kernel body, each read at an index.

  The body's arithmetic is cut into its stages — the product with W1 (contracting the feature axis of both
  operands), the mean over the feature axis kept as a column, the centred block, the mean of its squares plus ε, the
  normalised block (times the reciprocal square root, scaled and shifted by the two rows g and b), y · logistic y, the
  product of W2 with the activated block (experts by tokens) plus the bias column, and the softmax down the expert
  axis — and each stage, read at token q of the block, is the corresponding function of that token's row alone.  A sum
  over one axis of a block is the sum over that axis's coordinate; a maximum over the expert axis is the fold of max
  from −∞ over the 64 experts; a column kept from a row-wise quantity and spread over the block reads the quantity of
  the row; a single row spread down the block reads its entry at the column.
-/
import proofs.«175522_g35725537968797_cont_8to1_b_278_10_alg».proof.Proof.Gen.KernelIdeal.Skeleton
import proofs.«175522_g35725537968797_cont_8to1_b_278_10_alg».proof.Proof.RouterRow
import proofs.«175522_g35725537968797_cont_8to1_b_278_10_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.Router.Block

open Cert.KernelIdeal Cert.KernelIdeal.Gen Idealize.ShloMosaic Idealize.ShloMosaic.TcCoe
open Idealize.ShloMosaic.ValueIdx Cert.Router

local macro "coords2" : tactic => `(tactic| (funext a; match a with | ⟨0, _⟩ => rfl | ⟨1, _⟩ => rfl))
local macro "coords1" : tactic => `(tactic| (funext a; match a with | ⟨0, _⟩ => rfl))

/-! ## The stages -/

/-- The block times W1, contracting the feature axis of both. -/
def bHidden (x0 : FVec Ideal S2048x768 .f32) (x1 : FVec Ideal S768x768 .f32) : FVec Ideal S2048x768 .f32 :=
  matmul dot_S2048x768_S768x768_S2048x768_1_1_0_0_n_n none x0 x1 (constant S2048x768 .f32 0x00000000#32)

/-- The mean over the feature axis, kept as a column. -/
def bRowMean (h : FVec Ideal S2048x768 .f32) : FVec Ideal S2048x1 .f32 :=
  divf (shapeCast S2048x1 (multiReduction .add [1] S2048 h 0x00000000#32 reduces_S2048x768_S2048 (.inl rfl) rfl) shapeCasts_S2048_S2048x1)
    (broadcast S2048x1 (Scalar.ofBits .f32 0x44400000#32))

/-- The block minus its row means. -/
def bCentred (h : FVec Ideal S2048x768 .f32) : FVec Ideal S2048x768 .f32 :=
  subf h (broadcastTo S2048x768 (bRowMean h) broadcasts_S2048x1_S2048x768)

/-- The mean of the centred squares plus ε, as a column. -/
def bVarEps (h : FVec Ideal S2048x768 .f32) : FVec Ideal S2048x1 .f32 :=
  addf (bRowMean (mulf (bCentred h) (bCentred h))) (broadcast S2048x1 (Scalar.ofBits .f32 0x3727C5AC#32))

/-- The normalised block. -/
def bNormalised (h : FVec Ideal S2048x768 .f32) (g b : FVec Ideal S1x768 .f32) : FVec Ideal S2048x768 .f32 :=
  addf (mulf (mulf (bCentred h) (broadcastTo S2048x768 (rsqrt (bVarEps h)) broadcasts_S2048x1_S2048x768))
      (broadcastTo S2048x768 (shapeCast S1x768 g shapeCasts_S1x768_S1x768) broadcasts_S1x768_S2048x768))
    (broadcastTo S2048x768 (shapeCast S1x768 b shapeCasts_S1x768_S1x768) broadcasts_S1x768_S2048x768)

/-- y · logistic y, entrywise. -/
def bActivation (y : FVec Ideal S2048x768 .f32) : FVec Ideal S2048x768 .f32 := mulf y (logistic y)

/-- W2 times the activated block (experts by tokens), plus the bias column. -/
def bLogit0 (w2 : FVec Ideal S64x768 .f32) (a : FVec Ideal S2048x768 .f32) (b2 : FVec Ideal S64x1 .f32) : FVec Ideal S64x2048 .f32 :=
  addf (matmul dot_S64x768_S2048x768_S64x2048_1_1_0_0_n_n none w2 a (constant S64x2048 .f32 0x00000000#32))
    (broadcastTo S64x2048 (shapeCast S64x1 b2 shapeCasts_S64x1_S64x1) broadcasts_S64x1_S64x2048)

/-- The softmax down the expert axis of a block of logits. -/
def bSoftmax (l : FVec Ideal S64x2048 .f32) : FVec Ideal S64x2048 .f32 :=
  divf (exp (subf l (broadcastTo S64x2048 (shapeCast S1x2048 (multiReduction .maximumf [0] S2048 l 0xFF800000#32 reduces_S64x2048_S2048 (.inl rfl) rfl) shapeCasts_S2048_S1x2048) broadcasts_S1x2048_S64x2048)))
    (broadcastTo S64x2048 (shapeCast S1x2048 (multiReduction .add [0] S2048
      (exp (subf l (broadcastTo S64x2048 (shapeCast S1x2048 (multiReduction .maximumf [0] S2048 l 0xFF800000#32 reduces_S64x2048_S2048 (.inl rfl) rfl) shapeCasts_S2048_S1x2048) broadcasts_S1x2048_S64x2048)))
      0x00000000#32 reduces_S64x2048_S2048 (.inl rfl) rfl) shapeCasts_S2048_S1x2048) broadcasts_S1x2048_S64x2048)

/-- The body's first payload is the composition of the stages. -/
theorem pay3_stages (x0 : Vec Ideal S2048x768 .f32) (x1 : Vec Ideal S768x768 .f32) (x2 x3 : Vec Ideal S1x768 .f32)
    (x4 : Vec Ideal S64x768 .f32) (x5 : Vec Ideal S64x1 .f32) :
    k0_pay3 (F := Ideal) x0 x1 x2 x3 x4 x5 = bLogit0 x4 (bActivation (bNormalised (bHidden x0 x1) x2 x3)) x5 := rfl

/-- The weights' payload is the softmax of the logits' payload. -/
theorem pay2_stages (v34 v37 : FVec Ideal S64x2048 .f32) : k0_pay2 (F := Ideal) v34 v37 = bSoftmax (k0_pay1 v34 v37) := rfl

/-! ## The two products at an index -/

theorem d1_lhs0 (i : S2048x768.Idx) (q : dot_S2048x768_S768x768_S2048x768_1_1_0_0_n_n.contr.Idx) :
    (dot_S2048x768_S768x768_S2048x768_1_1_0_0_n_n.lhsIdx i q 0).val = (i 0).val := by
  unfold DotDims.lhsIdx
  rw [dif_neg (show ¬(0 : Fin S2048x768.rank) ∈ dot_S2048x768_S768x768_S2048x768_1_1_0_0_n_n.lhsBatch by decide),
    dif_pos (show (0 : Fin S2048x768.rank) ∈ dot_S2048x768_S768x768_S2048x768_1_1_0_0_n_n.lhsNonContracting by decide)]
  rfl
theorem d1_rhs0 (i : S2048x768.Idx) (q : dot_S2048x768_S768x768_S2048x768_1_1_0_0_n_n.contr.Idx) :
    (dot_S2048x768_S768x768_S2048x768_1_1_0_0_n_n.rhsIdx i q 0).val = (i 1).val := by
  unfold DotDims.rhsIdx
  rw [dif_neg (show ¬(0 : Fin S768x768.rank) ∈ dot_S2048x768_S768x768_S2048x768_1_1_0_0_n_n.rhsBatch by decide),
    dif_pos (show (0 : Fin S768x768.rank) ∈ dot_S2048x768_S768x768_S2048x768_1_1_0_0_n_n.rhsNonContracting by decide)]
  rfl

/-- The block times W1 at (q, j) is the hidden row of token q at j. -/
theorem hidden_blk (x0 : FVec Ideal S2048x768 .f32) (x1 : FVec Ideal S768x768 .f32) (q : Fin 2048) (j : Fin 768) :
    bHidden x0 x1 (ix2 q j) = hidden (fun k => x0 (ix2 q k)) (fun j k => x1 (ix2 j k)) j := by
  unfold bHidden hidden
  simp only [matmul]
  rw [Ideal.matmul_constant_zero_apply,
    ← Equiv.sum_comp (contrEquiv1 dot_S2048x768_S768x768_S2048x768_1_1_0_0_n_n 768 rfl rfl).symm]
  refine Finset.sum_congr rfl fun k _ => ?_
  have hk := contrEquiv1_symm_val dot_S2048x768_S768x768_S2048x768_1_1_0_0_n_n 768 rfl rfl k
  have el : dot_S2048x768_S768x768_S2048x768_1_1_0_0_n_n.lhsIdx (ix2 q j)
      ((contrEquiv1 dot_S2048x768_S768x768_S2048x768_1_1_0_0_n_n 768 rfl rfl).symm k) = ix2 q k :=
    funext fun a => Fin.ext (by
      match a with
      | ⟨0, _⟩ => exact d1_lhs0 _ _
      | ⟨1, _⟩ => exact (dot_S2048x768_S768x768_S2048x768_1_1_0_0_n_n.lhsIdx_val_of_single rfl _ _).trans hk)
  have er : dot_S2048x768_S768x768_S2048x768_1_1_0_0_n_n.rhsIdx (ix2 q j)
      ((contrEquiv1 dot_S2048x768_S768x768_S2048x768_1_1_0_0_n_n 768 rfl rfl).symm k) = ix2 j k :=
    funext fun a => Fin.ext (by
      match a with
      | ⟨0, _⟩ => exact d1_rhs0 _ _
      | ⟨1, _⟩ => exact (dot_S2048x768_S768x768_S2048x768_1_1_0_0_n_n.rhsIdx_val_of_single rfl _ _).trans hk)
  rw [el, er]

theorem d2_lhs0 (i : S64x2048.Idx) (q : dot_S64x768_S2048x768_S64x2048_1_1_0_0_n_n.contr.Idx) :
    (dot_S64x768_S2048x768_S64x2048_1_1_0_0_n_n.lhsIdx i q 0).val = (i 0).val := by
  unfold DotDims.lhsIdx
  rw [dif_neg (show ¬(0 : Fin S64x768.rank) ∈ dot_S64x768_S2048x768_S64x2048_1_1_0_0_n_n.lhsBatch by decide),
    dif_pos (show (0 : Fin S64x768.rank) ∈ dot_S64x768_S2048x768_S64x2048_1_1_0_0_n_n.lhsNonContracting by decide)]
  rfl
theorem d2_rhs0 (i : S64x2048.Idx) (q : dot_S64x768_S2048x768_S64x2048_1_1_0_0_n_n.contr.Idx) :
    (dot_S64x768_S2048x768_S64x2048_1_1_0_0_n_n.rhsIdx i q 0).val = (i 1).val := by
  unfold DotDims.rhsIdx
  rw [dif_neg (show ¬(0 : Fin S2048x768.rank) ∈ dot_S64x768_S2048x768_S64x2048_1_1_0_0_n_n.rhsBatch by decide),
    dif_pos (show (0 : Fin S2048x768.rank) ∈ dot_S64x768_S2048x768_S64x2048_1_1_0_0_n_n.rhsNonContracting by decide)]
  rfl

/-- W2 times the activated block plus the bias column, at (e, q). -/
theorem logit0_blk (w2 : FVec Ideal S64x768 .f32) (a : FVec Ideal S2048x768 .f32) (b2 : FVec Ideal S64x1 .f32)
    (e : Fin 64) (q : Fin 2048) :
    bLogit0 w2 a b2 (ix2 e q) = (∑ k : Fin 768, w2 (ix2 e k) * a (ix2 q k)) + b2 (ix2 e (0 : Fin 1)) := by
  unfold bLogit0
  rw [addf_apply, broadcastTo_a1_ab_apply, shapeCast_self]
  refine congrArg (· + _) ?_
  simp only [matmul]
  rw [Ideal.matmul_constant_zero_apply,
    ← Equiv.sum_comp (contrEquiv1 dot_S64x768_S2048x768_S64x2048_1_1_0_0_n_n 768 rfl rfl).symm]
  refine Finset.sum_congr rfl fun k _ => ?_
  have hk := contrEquiv1_symm_val dot_S64x768_S2048x768_S64x2048_1_1_0_0_n_n 768 rfl rfl k
  have el : dot_S64x768_S2048x768_S64x2048_1_1_0_0_n_n.lhsIdx (ix2 e q)
      ((contrEquiv1 dot_S64x768_S2048x768_S64x2048_1_1_0_0_n_n 768 rfl rfl).symm k) = ix2 e k :=
    funext fun a => Fin.ext (by
      match a with
      | ⟨0, _⟩ => exact d2_lhs0 _ _
      | ⟨1, _⟩ => exact (dot_S64x768_S2048x768_S64x2048_1_1_0_0_n_n.lhsIdx_val_of_single rfl _ _).trans hk)
  have er : dot_S64x768_S2048x768_S64x2048_1_1_0_0_n_n.rhsIdx (ix2 e q)
      ((contrEquiv1 dot_S64x768_S2048x768_S64x2048_1_1_0_0_n_n 768 rfl rfl).symm k) = ix2 q k :=
    funext fun a => Fin.ext (by
      match a with
      | ⟨0, _⟩ => exact d2_rhs0 _ _
      | ⟨1, _⟩ => exact (dot_S64x768_S2048x768_S64x2048_1_1_0_0_n_n.rhsIdx_val_of_single rfl _ _).trans hk)
  rw [el, er]

/-! ## The row-wise stages at an index -/

/-- The column of row means at (q, ·) is the mean of row q. -/
theorem rowMean_blk (h : FVec Ideal S2048x768 .f32) (q : Fin 2048) (u : Fin 1) :
    bRowMean h (ix2 q u) = rowMean (fun j => h (ix2 q j)) := by
  unfold bRowMean rowMean
  rw [divf_apply, shapeCast_a_a1_apply, broadcast_apply]
  show Ideal.div _ (Ideal.ofBits .f32 0x44400000#32) = _
  refine congrArg (Ideal.div · _) ?_
  refine (Ideal.multiReduction_add_single h 0x00000000#32 reduces_S2048x768_S2048 (.inl rfl) rfl (ix1 q)).trans ?_
  exact Finset.sum_congr rfl fun k _ => congrArg h (by coords2)

/-- The centred block at (q, j). -/
theorem centred_blk (h : FVec Ideal S2048x768 .f32) (q : Fin 2048) (j : Fin 768) :
    bCentred h (ix2 q j) = centred (fun j => h (ix2 q j)) j := by
  unfold bCentred centred
  rw [subf_apply, broadcastTo_a1_ab_apply, rowMean_blk]

/-- The column of variance + ε at (q, ·). -/
theorem varEps_blk (h : FVec Ideal S2048x768 .f32) (q : Fin 2048) (u : Fin 1) :
    bVarEps h (ix2 q u) = varEps (fun j => h (ix2 q j)) := by
  unfold bVarEps varEps
  rw [addf_apply, rowMean_blk, broadcast_apply]
  show rowMean _ + Ideal.ofBits .f32 0x3727C5AC#32 = _
  refine congrArg (· + _) (congrArg rowMean (funext fun j => ?_))
  rw [mulf_apply, centred_blk]

/-- The normalised block at (q, j). -/
theorem normalised_blk (h : FVec Ideal S2048x768 .f32) (g b : FVec Ideal S1x768 .f32) (q : Fin 2048) (j : Fin 768) :
    bNormalised h g b (ix2 q j)
      = normalised (fun j => h (ix2 q j)) (fun j => g (ix2 (0 : Fin 1) j)) (fun j => b (ix2 (0 : Fin 1) j)) j := by
  unfold bNormalised normalised
  rw [addf_apply, mulf_apply, mulf_apply, centred_blk, broadcastTo_a1_ab_apply, broadcastTo_1b_ab_apply,
    broadcastTo_1b_ab_apply, shapeCast_self, shapeCast_self]
  show _ * Ideal.rsqrt (bVarEps h (ix2 q (0 : Fin 1))) * _ + _ = _
  rw [varEps_blk]

/-- The activated block at an index. -/
theorem activation_blk (y : FVec Ideal S2048x768 .f32) (i : S2048x768.Idx) : bActivation y i = silu (y i) := rfl

/-! ## The softmax down the expert axis at an index -/

/-- The maximum over the expert axis at token q is the row maximum of that token's logits. -/
theorem rowMax_blk (l : FVec Ideal S64x2048 .f32) (q : Fin 2048) :
    multiReduction .maximumf [0] S2048 l 0xFF800000#32 reduces_S64x2048_S2048 (.inl rfl) rfl (ix1 q)
      = rowMax (fun e => l (ix2 e q)) := by
  refine (Ideal.multiReduction_maximumf_single l 0xFF800000#32 reduces_S64x2048_S2048 (.inl rfl) rfl (ix1 q)).trans ?_
  unfold rowMax
  show Finset.fold max (Ideal.ofBits .f32 0xFF800000#32) (fun e : Fin 64 => l (reduces_S64x2048_S2048.lift (ix1 q) e)) Finset.univ = _
  exact congrArg (fun f : Fin 64 → EReal => Finset.fold max (Ideal.ofBits .f32 0xFF800000#32) f Finset.univ)
    (funext fun e => congrArg l (by coords2))

/-- The shifted exponential at (e, q). -/
theorem expShifted_blk (l : FVec Ideal S64x2048 .f32) (e : Fin 64) (q : Fin 2048) :
    exp (subf l (broadcastTo S64x2048 (shapeCast S1x2048 (multiReduction .maximumf [0] S2048 l 0xFF800000#32 reduces_S64x2048_S2048 (.inl rfl) rfl) shapeCasts_S2048_S1x2048) broadcasts_S1x2048_S64x2048)) (ix2 e q)
      = expShifted (fun e => l (ix2 e q)) e := by
  show Ideal.exp (subf l _ (ix2 e q)) = _
  rw [subf_apply, broadcastTo_1b_ab_apply, shapeCast_a_1a_apply, rowMax_blk]
  rfl

/-- The softmax of a block of logits at (e, q) is the weight of expert e among token q's logits. -/
theorem softmax_blk (l : FVec Ideal S64x2048 .f32) (e : Fin 64) (q : Fin 2048) :
    bSoftmax l (ix2 e q) = weight (fun e => l (ix2 e q)) e := by
  unfold bSoftmax weight
  rw [divf_apply, expShifted_blk, broadcastTo_1b_ab_apply, shapeCast_a_1a_apply]
  refine congrArg (Ideal.div _ ·) ?_
  refine (Ideal.multiReduction_add_single _ 0x00000000#32 reduces_S64x2048_S2048 (.inl rfl) rfl (ix1 q)).trans ?_
  refine Finset.sum_congr rfl fun e' _ => ?_
  rw [show reduces_S64x2048_S2048.lift (ix1 q) e' = ix2 e' q by coords2]
  exact expShifted_blk l e' q

end Cert.Router.Block

end
-- ==== Proof.BlockRows.lean ====
/-
  What one block of 2048 tokens stores, entry by entry.

  The value stored for the logits at (expert e, token q of the block) is token q's logit for expert e, as the
  per-token function of row q of the block of x and of the whole W1, g, b, W2, b2, eb; the value stored for the
  weights at (e, q) is the softmax weight of expert e among token q's 64 logits.
-/
import proofs.«175522_g35725537968797_cont_8to1_b_278_10_alg».proof.Proof.BlockStages

noncomputable section

namespace Cert.Router.Block

open Cert.KernelIdeal Cert.KernelIdeal.Gen Idealize.ShloMosaic Idealize.ShloMosaic.TcCoe
open Idealize.ShloMosaic.ValueIdx Cert.Router

variable (x0 : FVec Ideal S2048x768 .f32) (x1 : FVec Ideal S768x768 .f32) (x2 x3 : FVec Ideal S1x768 .f32)
  (x4 : FVec Ideal S64x768 .f32) (x5 x6 : FVec Ideal S64x1 .f32)

/-- The activated block at (q, k) is token q's activated row at k. -/
theorem activated_blk (q : Fin 2048) (k : Fin 768) :
    bActivation (bNormalised (bHidden x0 x1) x2 x3) (ix2 q k)
      = activation (fun k => x0 (ix2 q k)) (fun j k => x1 (ix2 j k)) (fun j => x2 (ix2 (0 : Fin 1) j))
          (fun j => x3 (ix2 (0 : Fin 1) j)) k := by
  rw [activation_blk, normalised_blk]
  unfold activation
  refine congrArg silu ?_
  exact congrArg (fun h : Fin 768 → EReal => normalised h (fun j => x2 (ix2 (0 : Fin 1) j)) (fun j => x3 (ix2 (0 : Fin 1) j)) k)
    (funext fun j => hidden_blk x0 x1 q j)

/-- The logits' stored value at (e, q). -/
theorem logit_blk (e : Fin 64) (q : Fin 2048) :
    k0_pay1 (F := Ideal) (k0_pay3 x0 x1 x2 x3 x4 x5) (k0_pay4 x6) (ix2 e q)
      = tokenLogit (fun k => x0 (ix2 q k)) (fun j k => x1 (ix2 j k)) (fun j => x2 (ix2 (0 : Fin 1) j))
          (fun j => x3 (ix2 (0 : Fin 1) j)) (fun e k => x4 (ix2 e k)) (fun e => x5 (ix2 e (0 : Fin 1)))
          (fun e => x6 (ix2 e (0 : Fin 1))) e := by
  rw [pay3_stages]
  show Ideal.div (bLogit0 x4 (bActivation (bNormalised (bHidden x0 x1) x2 x3)) x5 (ix2 e q)
      + broadcastTo S64x2048 (shapeCast S64x1 x6 shapeCasts_S64x1_S64x1) broadcasts_S64x1_S64x2048 (ix2 e q))
    (Ideal.ofBits .f32 0x3DCCCCCD#32) = _
  rw [logit0_blk, broadcastTo_a1_ab_apply, shapeCast_self]
  unfold tokenLogit logit
  refine congrArg (Ideal.div · _) (congrArg (· + _) (congrArg (· + _) (Finset.sum_congr rfl fun k _ => ?_)))
  exact congrArg (x4 (ix2 e k) * ·) (activated_blk x0 x1 x2 x3 q k)

/-- The weights' stored value at (e, q). -/
theorem weight_blk (e : Fin 64) (q : Fin 2048) :
    k0_pay2 (F := Ideal) (k0_pay3 x0 x1 x2 x3 x4 x5) (k0_pay4 x6) (ix2 e q)
      = weight (tokenLogit (fun k => x0 (ix2 q k)) (fun j k => x1 (ix2 j k)) (fun j => x2 (ix2 (0 : Fin 1) j))
          (fun j => x3 (ix2 (0 : Fin 1) j)) (fun e k => x4 (ix2 e k)) (fun e => x5 (ix2 e (0 : Fin 1)))
          (fun e => x6 (ix2 e (0 : Fin 1)))) e := by
  rw [pay2_stages, softmax_blk]
  exact congrArg (fun l : Fin 64 → EReal => weight l e) (funext fun e' => logit_blk x0 x1 x2 x3 x4 x5 x6 e' q)

end Cert.Router.Block

end
-- ==== Proof.KernelArrays.lean ====
/-
  The launch's three result arrays, and the program's three results.

  What point t writes back to a result window is the block of the experts-by-tokens array that lies at columns
  t·2048 … t·2048 + 2047: its entry (e, q) is token t·2048 + q's value for expert e, because row q of the token
  block is that token's row of x and the other operands are held whole.  The sixteen blocks cover each array, so after the
  launch each array is the router's experts-by-tokens array of the arrays the launch found; those are the program's
  arguments, the vectors g, b, b2, eb reshaped.  The three transposes after the launch turn experts-by-tokens into
  tokens-by-experts, and the arguments end as they began.
-/
import proofs.«175522_g35725537968797_cont_8to1_b_278_10_alg».proof.Proof.KernelBlocks
import proofs.«175522_g35725537968797_cont_8to1_b_278_10_alg».proof.Proof.BlockRows
import proofs.«175522_g35725537968797_cont_8to1_b_278_10_alg».proof.Proof.RouterArrays

noncomputable section

namespace Cert.Router.Kernel

open Cert.KernelIdeal Cert.KernelIdeal.Gen Idealize.ShloMosaic Idealize.ShloMosaic.TcCoe Idealize.SL.Sem
open Idealize.ShloMosaic.Pipeline (Dat)
open Idealize.ShloMosaic.ValueIdx Cert.Router Cert.Router.Block

variable (m : (ℓ : Loc nD τ sig) → Buf (Elt Ideal) ℓ) (ρ : Dev nD → PrngReg)

/-! ## One block, over the arrays the launch finds -/

/-- The logits' stored value at (e, q) of point t's block is token t·2048 + q's logit for expert e. -/
theorem block_logit (c : Dev nD) (t : Fin cfg0.N) (e : Fin 64) (q : Fin 2048) :
    k0_pay1 (F := Ideal) (k0_pay3 (iblk m c 0 t) (iblk m c 1 t) (iblk m c 2 t) (iblk m c 3 t) (iblk m c 4 t) (iblk m c 5 t)) (k0_pay4 (iblk m c 6 t)) (ix2 e q)
      = logitAt (V m c main_arg0) (V m c main_arg1) (V m c main_call0_v0) (V m c main_call0_v1) (V m c main_arg4) (V m c main_call0_v2) (V m c main_call0_v3) (tokenOf t q) e := by
  refine (logit_blk (iblk m c 0 t) (iblk m c 1 t) (iblk m c 2 t) (iblk m c 3 t) (iblk m c 4 t) (iblk m c 5 t) (iblk m c 6 t) e q).trans ?_
  unfold logitAt
  exact congrFun (tokenLogit_congr (fun k => blk0 m c t q k) (fun j k => blk1 m c t j k) (fun j => blk2 m c t 0 j) (fun j => blk3 m c t 0 j) (fun e k => blk4 m c t e k) (fun e => blk5 m c t e 0) (fun e => blk6 m c t e 0)) e

/-- The weights' stored value at (e, q) of point t's block is token t·2048 + q's weight for expert e. -/
theorem block_weight (c : Dev nD) (t : Fin cfg0.N) (e : Fin 64) (q : Fin 2048) :
    k0_pay2 (F := Ideal) (k0_pay3 (iblk m c 0 t) (iblk m c 1 t) (iblk m c 2 t) (iblk m c 3 t) (iblk m c 4 t) (iblk m c 5 t)) (k0_pay4 (iblk m c 6 t)) (ix2 e q)
      = weight (logitAt (V m c main_arg0) (V m c main_arg1) (V m c main_call0_v0) (V m c main_call0_v1) (V m c main_arg4) (V m c main_call0_v2) (V m c main_call0_v3) (tokenOf t q)) e := by
  refine (weight_blk (iblk m c 0 t) (iblk m c 1 t) (iblk m c 2 t) (iblk m c 3 t) (iblk m c 4 t) (iblk m c 5 t) (iblk m c 6 t) e q).trans ?_
  unfold logitAt
  exact congrArg (fun l : Fin 64 → EReal => weight l e) (tokenLogit_congr (fun k => blk0 m c t q k) (fun j k => blk1 m c t j k) (fun j => blk2 m c t 0 j) (fun j => blk3 m c t 0 j) (fun e k => blk4 m c t e k) (fun e => blk5 m c t e 0) (fun e => blk6 m c t e 0))

/-! ## What each point writes back -/

/-- Point t writes back block t of the experts-by-tokens weights. -/
theorem flushed7 (c : Dev nD) (t : Fin cfg0.N) :
    (dats m 0 c).flushed 7 t = ((cfg0.win 7).blk t).view.read (Elt Ideal) (weightsT (V m c main_arg0) (V m c main_arg1) (V m c main_call0_v0) (V m c main_call0_v1) (V m c main_arg4) (V m c main_call0_v2) (V m c main_call0_v3)) := by
  show (cfg0.win 7).cut (grid0.coords t) ((dats m 0 c).after 7 t) = _
  rw [after0_7]
  unfold out0_7
  rw [View.canon_unit_zero hz]
  simp only [View.ld_unit_zero (S := S2048x768) hz, View.ld_unit_zero (S := S768x768) hz, View.ld_unit_zero (S := S1x768) hz, View.ld_unit_zero (S := S64x768) hz, View.ld_unit_zero (S := S64x1) hz]
  funext y
  obtain ⟨e, q, rfl⟩ : ∃ (e : Fin 64) (q : Fin 2048), y = ix2 e q := ⟨y 0, y 1, eq_ix2 y⟩
  show k0_pay2 (F := Ideal) (k0_pay3 (iblk m c 0 t) (iblk m c 1 t) (iblk m c 2 t) (iblk m c 3 t) (iblk m c 4 t) (iblk m c 5 t)) (k0_pay4 (iblk m c 6 t)) (ix2 e q)
    = weightsT (V m c main_arg0) (V m c main_arg1) (V m c main_call0_v0) (V m c main_call0_v1) (V m c main_arg4) (V m c main_call0_v2) (V m c main_call0_v3) (((cfg0.win 7).blk t).view.emb (ix2 e q))
  rw [emb7 t e q]
  exact block_weight m c t e q

/-- Point t writes back block t of the experts-by-tokens expert numbers. -/
theorem flushed8 (c : Dev nD) (t : Fin cfg0.N) :
    (dats m 0 c).flushed 8 t = ((cfg0.win 8).blk t).view.read (Elt Ideal) expertsT := by
  show (cfg0.win 8).cut (grid0.coords t) ((dats m 0 c).after 8 t) = _
  rw [after0_8]
  unfold out0_8
  rw [View.canon_unit_zero hz]
  funext y
  obtain ⟨e, q, rfl⟩ : ∃ (e : Fin 64) (q : Fin 2048), y = ix2 e q := ⟨y 0, y 1, eq_ix2 y⟩
  show iota .tc S64x2048 32 [0] iota_S64x2048_d0_w32 (ix2 e q) = expertsT (((cfg0.win 8).blk t).view.emb (ix2 e q))
  rw [emb8 t e q, iota_single_apply]
  rfl

/-- Point t writes back block t of the experts-by-tokens logits. -/
theorem flushed9 (c : Dev nD) (t : Fin cfg0.N) :
    (dats m 0 c).flushed 9 t = ((cfg0.win 9).blk t).view.read (Elt Ideal) (logitsT (V m c main_arg0) (V m c main_arg1) (V m c main_call0_v0) (V m c main_call0_v1) (V m c main_arg4) (V m c main_call0_v2) (V m c main_call0_v3)) := by
  show (cfg0.win 9).cut (grid0.coords t) ((dats m 0 c).after 9 t) = _
  rw [after0_9]
  unfold out0_9
  rw [View.canon_unit_zero hz]
  simp only [View.ld_unit_zero (S := S2048x768) hz, View.ld_unit_zero (S := S768x768) hz, View.ld_unit_zero (S := S1x768) hz, View.ld_unit_zero (S := S64x768) hz, View.ld_unit_zero (S := S64x1) hz]
  funext y
  obtain ⟨e, q, rfl⟩ : ∃ (e : Fin 64) (q : Fin 2048), y = ix2 e q := ⟨y 0, y 1, eq_ix2 y⟩
  show k0_pay1 (F := Ideal) (k0_pay3 (iblk m c 0 t) (iblk m c 1 t) (iblk m c 2 t) (iblk m c 3 t) (iblk m c 4 t) (iblk m c 5 t)) (k0_pay4 (iblk m c 6 t)) (ix2 e q)
    = logitsT (V m c main_arg0) (V m c main_arg1) (V m c main_call0_v0) (V m c main_call0_v1) (V m c main_arg4) (V m c main_call0_v2) (V m c main_call0_v3) (((cfg0.win 9).blk t).view.emb (ix2 e q))
  rw [emb9 t e q]
  exact block_logit m c t e q

/-! ## The arrays after the launch -/

theorem final7 (c : Dev nD) : (dats m 0 c).arrAt 7 cfg0.N = weightsT (V m c main_arg0) (V m c main_arg1) (V m c main_call0_v0) (V m c main_call0_v1) (V m c main_arg4) (V m c main_call0_v2) (V m c main_call0_v3) :=
  (dats m 0 c).arrAt_eq_of_cover 7 _ (fun t _ => flushed7 m c t) cover7

theorem final8 (c : Dev nD) : (dats m 0 c).arrAt 8 cfg0.N = expertsT :=
  (dats m 0 c).arrAt_eq_of_cover 8 _ (fun t _ => flushed8 m c t) cover8

theorem final9 (c : Dev nD) : (dats m 0 c).arrAt 9 cfg0.N = logitsT (V m c main_arg0) (V m c main_arg1) (V m c main_call0_v0) (V m c main_call0_v1) (V m c main_arg4) (V m c main_call0_v2) (V m c main_call0_v3) :=
  (dats m 0 c).arrAt_eq_of_cover 9 _ (fun t _ => flushed9 m c t) cover9

/-- The arrays the launch finds are the program's arguments, the four vectors reshaped. -/
theorem logitAt_found (c : Dev nD) (r : Fin 32768) :
    logitAt (V m c main_arg0) (V m c main_arg1) (V m c main_call0_v0) (V m c main_call0_v1) (V m c main_arg4) (V m c main_call0_v2) (V m c main_call0_v3) r = logitOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) r := by
  unfold logitAt logitOf
  exact tokenLogit_congr (fun k => congrFun (V_main_arg0 m c) (ix2 r k)) (fun j k => congrFun (V_main_arg1 m c) (ix2 j k))
    (fun j => V_g m c 0 j) (fun j => V_b m c 0 j) (fun e k => congrFun (V_main_arg4 m c) (ix2 e k))
    (fun e => V_b2 m c e 0) (fun e => V_eb m c e 0)

/-! ## The transposes after the launch -/

theorem tail7 (c : Dev nD) :
    Pipeline.afterTail₀ cfgs (dats m) 0 (V0 m) [hostOps1] c main_v0_0
      = transpose S32768x64 [1, 0] ((dats m 0 c).arrAt 7 cfg0.N) transposes_S64x32768_S32768x64_1_0 := by
  unfold Pipeline.afterTail₀
  show StableHlo.after hostOps1 _ (Proc.devRef .tc main_v0_0) = _
  after_results
  have hw := Pipeline.withArrays_arr (cfgs 0).spec launch0.win.arr_inj c (V0 m c) (fun w => (dats m 0 c).arrAt w (cfgs 0).N) 7
  exact congrArg (fun X => transpose S32768x64 [1, 0] X transposes_S64x32768_S32768x64_1_0) hw

theorem tail8 (c : Dev nD) :
    Pipeline.afterTail₀ cfgs (dats m) 0 (V0 m) [hostOps1] c main_v0_1
      = transpose S32768x64 [1, 0] ((dats m 0 c).arrAt 8 cfg0.N) transposes_S64x32768_S32768x64_1_0 := by
  unfold Pipeline.afterTail₀
  show StableHlo.after hostOps1 _ (Proc.devRef .tc main_v0_1) = _
  after_results
  have hw := Pipeline.withArrays_arr (cfgs 0).spec launch0.win.arr_inj c (V0 m c) (fun w => (dats m 0 c).arrAt w (cfgs 0).N) 8
  exact congrArg (fun X => transpose S32768x64 [1, 0] X transposes_S64x32768_S32768x64_1_0) hw

theorem tail9 (c : Dev nD) :
    Pipeline.afterTail₀ cfgs (dats m) 0 (V0 m) [hostOps1] c main_v0_2
      = transpose S32768x64 [1, 0] ((dats m 0 c).arrAt 9 cfg0.N) transposes_S64x32768_S32768x64_1_0 := by
  unfold Pipeline.afterTail₀
  show StableHlo.after hostOps1 _ (Proc.devRef .tc main_v0_2) = _
  after_results
  have hw := Pipeline.withArrays_arr (cfgs 0).spec launch0.win.arr_inj c (V0 m c) (fun w => (dats m 0 c).arrAt w (cfgs 0).N) 9
  exact congrArg (fun X => transpose S32768x64 [1, 0] X transposes_S64x32768_S32768x64_1_0) hw

/-- The first result: the weights, tokens by experts. -/
theorem result_weights (c : Dev nD) :
    Pipeline.afterTail₀ cfgs (dats m) 0 (V0 m) [hostOps1] c main_v0_0 = weightsArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [tail7, final7]
  funext i
  obtain ⟨r, e, rfl⟩ : ∃ (r : Fin 32768) (e : Fin 64), i = ix2 r e := ⟨i 0, i 1, eq_ix2 i⟩
  rw [transpose_ix2_apply]
  show weight (logitAt (V m c main_arg0) (V m c main_arg1) (V m c main_call0_v0) (V m c main_call0_v1) (V m c main_arg4) (V m c main_call0_v2) (V m c main_call0_v3) r) e = weight (logitOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) r) e
  rw [logitAt_found]

/-- The second result: the expert numbers, tokens by experts. -/
theorem result_experts (c : Dev nD) :
    Pipeline.afterTail₀ cfgs (dats m) 0 (V0 m) [hostOps1] c main_v0_1 = expertsArr := by
  rw [tail8, final8]
  funext i
  obtain ⟨r, e, rfl⟩ : ∃ (r : Fin 32768) (e : Fin 64), i = ix2 r e := ⟨i 0, i 1, eq_ix2 i⟩
  rw [transpose_ix2_apply]
  rfl

/-- The third result: the logits, tokens by experts. -/
theorem result_logits (c : Dev nD) :
    Pipeline.afterTail₀ cfgs (dats m) 0 (V0 m) [hostOps1] c main_v0_2 = logitsArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [tail9, final9]
  funext i
  obtain ⟨r, e, rfl⟩ : ∃ (r : Fin 32768) (e : Fin 64), i = ix2 r e := ⟨i 0, i 1, eq_ix2 i⟩
  rw [transpose_ix2_apply]
  show logitAt (V m c main_arg0) (V m c main_arg1) (V m c main_call0_v0) (V m c main_call0_v1) (V m c main_arg4) (V m c main_call0_v2) (V m c main_call0_v3) r e = logitOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) r e
  rw [logitAt_found]

/-! ## The run -/

/-- Every weakly fair execution of the program terminates with its three results at the router's arrays of the
    arguments, and the arguments unchanged. -/
theorem run : θ_run defs (onTc (τ := τ) (main (F := Ideal))) ⟨m, fun _ => 0, ρ⟩ fun r => ∀ c : Dev nD,
      r.2.mem ((c.tc : Thread nD τ).loc main_v0_0) = weightsArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v0_1) = expertsArr
      ∧ r.2.mem ((c.tc : Thread nD τ).loc main_v0_2) = logitsArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v0_0 (Pipeline.mem_restRefs_of main_v0_0 (by decide) (by decide))).trans (result_weights m c),
      ((h c).2 main_v0_1 (Pipeline.mem_restRefs_of main_v0_1 (by decide) (by decide))).trans (result_experts m c),
      ((h c).2 main_v0_2 (Pipeline.mem_restRefs_of main_v0_2 (by decide) (by decide))).trans (result_logits m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.Router.Kernel

end
-- ==== Proof.lean ====
/-
  The router kernel against its reference, over the extended reals.

  Both programs compute, for each of 32768 tokens, a hidden row x · W1ᵀ, its normalisation over the 768 features
  (centre, divide by the square root of variance + ε, scale by g, shift by b), y · logistic y, the 64 logits
  (a · W2ᵀ + b2 + eb) / 0.1, their softmax, and the expert numbers 0 … 63.  The kernel does this sixteen times on
  blocks of 2048 tokens, experts by tokens, and transposes at the end; the reference does it once on the whole batch.
  Since every step acts on one token's row alone, both end at the same three arrays of the arguments, stated once
  (RouterRow, RouterArrays).  The two arrangements differ where the kernel multiplies by the reciprocal square root and
  the reference divides by the square root — equal because variance + ε is strictly positive on the extended reals,
  with no finiteness assumed — and in the side of a product, the spelling of the logistic function, and one more
  comparison with −∞.

  The reference's side is read stage by stage (ReferenceRows, ReferenceArrays); the kernel's side block by block
  (BlockStages, BlockRows), then blocks to arrays and the final transposes (KernelBlocks, KernelArrays).  The frames
  are the generated runs; nothing was rewritten between the kernel and its idealization.
-/
import proofs.«175522_g35725537968797_cont_8to1_b_278_10_alg».proof.Defs
import proofs.«175522_g35725537968797_cont_8to1_b_278_10_alg».proof.Proof.Gen.Kernel
import proofs.«175522_g35725537968797_cont_8to1_b_278_10_alg».proof.Proof.Gen.Kernel.Frame
import proofs.«175522_g35725537968797_cont_8to1_b_278_10_alg».proof.Proof.Gen.KernelIdeal
import proofs.«175522_g35725537968797_cont_8to1_b_278_10_alg».proof.Proof.Gen.KernelIdeal.Frame
import proofs.«175522_g35725537968797_cont_8to1_b_278_10_alg».proof.Proof.Gen.ReferenceIdeal
import proofs.«175522_g35725537968797_cont_8to1_b_278_10_alg».proof.Proof.Gen.Pre_finite_inputs
import proofs.«175522_g35725537968797_cont_8to1_b_278_10_alg».proof.Proof.Gen.ReferenceIdeal.Run
import proofs.«175522_g35725537968797_cont_8to1_b_278_10_alg».proof.Proof.Gen.ReferenceIdeal.Read
import proofs.«175522_g35725537968797_cont_8to1_b_278_10_alg».proof.Proof.ReferenceArrays
import proofs.«175522_g35725537968797_cont_8to1_b_278_10_alg».proof.Proof.KernelArrays
import Idealize.ShloMosaic.Adequacy
import Idealize.ShloMosaic.Init

noncomputable section

namespace Cert.Proof

open Idealize.ShloMosaic Idealize.ShloMosaic.TcCoe Idealize.SL.Sem

/-- The kernel runs and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the results dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2)
    (Cert.ReferenceIdeal.Value.run (F := Ideal) m ρ)

/-- Nothing was rewritten between the kernel and its idealization. -/
theorem preserves : Cert.preserves_Kernel_KernelIdeal := trivial

/-- From memories that agree on the arguments both programs end at the router's weights, expert numbers and logits
    of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, _, Cert.Router.Kernel.run m ρ, ?_⟩
  refine (θ_run Cert.ReferenceIdeal.defs _ _).mono (fun _ h c => ⟨?_, ?_, ?_, (h c).2.2.2⟩)
    (Cert.ReferenceIdeal.Value.run (F := Ideal) m' ρ')
  · rw [(h c).1, Cert.ReferenceIdeal.Read.val_main_v53_eq, Cert.Router.Reference.weights_eq,
      (hagree c).1, (hagree c).2.1, (hagree c).2.2.1, (hagree c).2.2.2.1, (hagree c).2.2.2.2.1,
      (hagree c).2.2.2.2.2.1, (hagree c).2.2.2.2.2.2]
  · rw [(h c).2.1, Cert.ReferenceIdeal.Read.val_main_v55_eq (F := Ideal), Cert.Router.Reference.experts_eq]
  · rw [(h c).2.2.1, Cert.ReferenceIdeal.Read.val_main_v42_eq, Cert.Router.Reference.logits_eq,
      (hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
